-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  main_v53

def fn_part2 {F : FTy → Type} [FloatOps F] (main_arg8 : FVec F S128 .f32) (main_arg9 : FVec F S64x128 .f32) (main_arg10 : FVec F S64 .f32) (main_arg11 : FVec F S64x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg11
  let main_cst_18 : FVec F S_ .f32 := constant S_ .f32 0x7F800000#32
  let main_v50 : FVec F S64x128 .f32 := broadcastInDim S64x128 ![] bcast_S_S64x128 main_cst_18
  fn_part3 (F := F) main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S64x128 .f32) (main_arg10 : FVec F S64 .f32) (main_arg11 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S64x128 .f32) (main_arg10 : FVec F S64 .f32) (main_arg11 : FVec F S64x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S2000x128 : Shape := ⟨2, ![2000, 128]⟩
abbrev S2000x1 : Shape := ⟨2, ![2000, 1]⟩
abbrev S1x128 : Shape := ⟨2, ![1, 128]⟩
abbrev S50000x64 : Shape := ⟨2, ![50000, 64]⟩
abbrev S2000x64 : Shape := ⟨2, ![2000, 64]⟩
abbrev S128x64 : Shape := ⟨2, ![128, 64]⟩
abbrev S1x64 : Shape := ⟨2, ![1, 64]⟩

abbrev nBuf : Space → Nat
  | .hbm => 58
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S64x128, .f32⟩
  | .hbm, ⟨10, _⟩ => ⟨S64, .f32⟩
  | .hbm, ⟨11, _⟩ => ⟨S64x128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .f32⟩
  | .hbm, ⟨17, _⟩ => ⟨S600000, .f32⟩
  | .hbm, ⟨18, _⟩ => ⟨S_, .f32⟩
  | .hbm, ⟨19, _⟩ => ⟨S50000, .f32⟩
  | .hbm, ⟨20, _⟩ => ⟨S600000x1, .i32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S_, .f32⟩
  | .hbm, ⟨40, _⟩ => ⟨S50000x128, .f32⟩
  | .hbm, ⟨41, _⟩ => ⟨S600000x1, .i32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .f32⟩
  | .hbm, ⟨53, _⟩ => ⟨S_, .f32⟩
  | .hbm, ⟨54, _⟩ => ⟨S50000x128, .f32⟩
  | .hbm, ⟨55, _⟩ => ⟨S600000x1, .i32⟩
  | .hbm, ⟨56, _⟩ => ⟨S50000x128, .f32⟩
  | .hbm, ⟨57, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x1, .f32⟩
  | .local _ .vmem, ⟨18, _⟩ => ⟨S2000x1, .f32⟩
  | .local _ .vmem, ⟨19, _⟩ => ⟨S2000x128, .f32⟩
  | .local _ .vmem, ⟨20, _⟩ => ⟨S2000x128, .f32⟩
  | .local _ .vmem, ⟨21, _⟩ => ⟨S64x128, .f32⟩
  | .local _ .vmem, ⟨22, _⟩ => ⟨S64, .f32⟩
  | .local _ .vmem, ⟨23, _⟩ => ⟨S64x128, .f32⟩
  | .local _ .vmem, ⟨24, _⟩ => ⟨S2000x64, .f32⟩
  | .local _ .vmem, ⟨25, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_7 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S50000x128.size a
  hwx0_10 : ∀ i : grid0.Coords, EltTy.bits .f32 = 32 ∨ (Rect.block (s := S50000x128) S2000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S50000x64.size a
  hwx1_6 : ∀ i : grid1.Coords, EltTy.bits .f32 = 32 ∨ (Rect.block (s := S50000x64) S2000x64.size (cc1_transform_6 i) (hinb1_6 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v21) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v22) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v32) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 103
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S64x128, .f32⟩
  | .hbm, ⟨10, _⟩ => ⟨S64, .f32⟩
  | .hbm, ⟨11, _⟩ => ⟨S64x128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S_, .f32⟩
  | .hbm, ⟨30, _⟩ => ⟨S600000, .f32⟩
  | .hbm, ⟨31, _⟩ => ⟨S_, .f32⟩
  | .hbm, ⟨32, _⟩ => ⟨S50000, .f32⟩
  | .hbm, ⟨33, _⟩ => ⟨S600000x1, .i32⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S128x128, .f32⟩
  | .hbm, ⟨48, _⟩ => ⟨S50000x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S1x128, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S600000, .i32⟩
  | .hbm, ⟨71, _⟩ => ⟨S600000, .i1⟩
  | .hbm, ⟨72, _⟩ => ⟨S_, .i32⟩
  | .hbm, ⟨73, _⟩ => ⟨S600000, .i32⟩
  | .hbm, ⟨74, _⟩ => ⟨S600000, .i32⟩
  | .hbm, ⟨75, _⟩ => ⟨S600000, .i32⟩
  | .hbm, ⟨76, _⟩ => ⟨S600000x1, .i32⟩
  | .hbm, ⟨77, _⟩ => ⟨S600000x128, .f32⟩
  | .hbm, ⟨78, _⟩ => ⟨S_, .f32⟩
  | .hbm, ⟨79, _⟩ => ⟨S50000x128, .f32⟩
  | .hbm, ⟨80, _⟩ => ⟨S600000x1, .i32⟩
  | .hbm, ⟨81, _⟩ => ⟨S50000x128, .f32⟩
  | .hbm, ⟨82, _⟩ => ⟨S_, .f32⟩
  | .hbm, ⟨83, _⟩ => ⟨S600000, .f32⟩
  | .hbm, ⟨84, _⟩ => ⟨S_, .f32⟩
  | .hbm, ⟨85, _⟩ => ⟨S50000, .f32⟩
  | .hbm, ⟨86, _⟩ => ⟨S600000x1, .i32⟩
  | .hbm, ⟨87, _⟩ => ⟨S50000, .f32⟩
  | .hbm, ⟨88, _⟩ => ⟨S_, .f32⟩
  | .hbm, ⟨89, _⟩ => ⟨S_, .f32⟩
  | .hbm, ⟨90, _⟩ => ⟨S50000, .f32⟩
  | .hbm, ⟨91, _⟩ => ⟨S50000, .f32⟩
  | .hbm, ⟨92, _⟩ => ⟨S50000x1, .f32⟩
  | .hbm, ⟨93, _⟩ => ⟨S50000x128, .f32⟩
  | .hbm, ⟨94, _⟩ => ⟨S50000x128, .f32⟩
  | .hbm, ⟨95, _⟩ => ⟨S128x64, .f32⟩
  | .hbm, ⟨96, _⟩ => ⟨S50000x64, .f32⟩
  | .hbm, ⟨97, _⟩ => ⟨S1x64, .f32⟩
  | .hbm, ⟨98, _⟩ => ⟨S50000x64, .f32⟩
  | .hbm, ⟨99, _⟩ => ⟨S50000x64, .f32⟩
  | .hbm, ⟨100, _⟩ => ⟨S128x64, .f32⟩
  | .hbm, ⟨101, _⟩ => ⟨S50000x64, .f32⟩
  | .hbm, ⟨102, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_call1_cst : Ref sig .tc := ⟨.hbm, 66, rfl⟩
abbrev main_call1_v0 : Ref sig .tc := ⟨.hbm, 67, rfl⟩
abbrev main_v45 : Ref sig .tc := ⟨.hbm, 68, rfl⟩
abbrev main_c_5 : Ref sig .tc := ⟨.hbm, 69, rfl⟩
abbrev main_v46 : Ref sig .tc := ⟨.hbm, 70, rfl⟩
abbrev main_v47 : Ref sig .tc := ⟨.hbm, 71, rfl⟩
abbrev main_c_6 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_7 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_8 : Ref sig .tc := ⟨.hbm, 82, rfl⟩
abbrev main_v56 : Ref sig .tc := ⟨.hbm, 83, rfl⟩
abbrev main_cst_9 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_10 : Ref sig .tc := ⟨.hbm, 88, rfl⟩
abbrev main_call2_v0 : Ref sig .tc := ⟨.hbm, 89, rfl⟩
abbrev main_call2_v1 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run, with every buffer read.

  The program is six stretches in a row: three stretches of host operations (the edge lists, the clipped degree and
  its reciprocal, the first neighbour sum), the first dense layer as a grid of row blocks, one more stretch of host
  operations (the second neighbour sum, of the first layer's result) and the second dense layer as a grid of row
  blocks. The generated frame names the buffer contents at each boundary (the last is `W6`). Here the same six
  stretches are run once more with a stronger closing statement: after the run EVERY unscoped buffer of a core holds
  `W6`'s contents, the result buffer among them.
-/
import proofs.«167576_j80676665688561_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The result buffer is unscoped, so it is among the buffers the run reads. -/
theorem result_mem : Proc.devRef .tc main_v33 ∈ Pipeline.ucRefs τ sig := mem_uc main_v33 (by decide)

/-- The run with the result named: the result buffer at the last boundary's contents, every argument as launched. -/
theorem run_result : θ_run defs (onTc (τ := τ) (main (F := F))) ⟨m, fun _ => 0, ρ⟩ (fun r => ∀ c : Dev nD,
      r.2.mem ((c.tc : Thread nD τ).loc main_v33) = W6 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun s h c =>
      ⟨h c _ (mem_uc main_v33 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)
    (run_all m ρ)

end Cert.KernelIdeal.Whole

end
-- ==== Proof.LibRecipClip.lean ====
/-
  A mean taken by a reciprocal of a clipped count, on the extended reals.

  For a count d clipped below at one, c = max(1, d), the product a * (1 / c) and the quotient a / c agree for EVERY
  extended real a (the infinities included) and every extended real d: c >= 1 is not zero, and off zero the quotient
  is by definition the product with the inverse. The one is the f32 word 0x3F800000 read as an extended real. No
  finiteness of a or of d is needed.
-/
import Idealize.ShloMosaic.PureOps.Ideal
import Idealize.ShloMosaic.PureOps.Ideal.Laws
import Idealize.ShloMosaic.Lib.IdealHost

noncomputable section

namespace Cert.LibRecipClip

open Idealize.ShloMosaic

/-- A value clipped below at one is not zero. -/
theorem clip_ne_zero (d : EReal) : max (Ideal.ofBits .f32 0x3F800000#32) d ≠ 0 := by
  rw [Ideal.ofBits_one_f32]
  exact ne_of_gt (lt_of_lt_of_le zero_lt_one (le_max_left _ _))

/-- The reciprocal of a value clipped below at one is its inverse. -/
theorem recip_clip (d : EReal) :
    Ideal.div (Ideal.ofBits .f32 0x3F800000#32) (max (Ideal.ofBits .f32 0x3F800000#32) d)
      = (max (Ideal.ofBits .f32 0x3F800000#32) d)⁻¹ := by
  unfold Ideal.div
  rw [if_neg (clip_ne_zero d), Ideal.ofBits_one_f32, one_mul]

/-- Multiplying by the reciprocal of a clipped value is dividing by it, for every extended real numerator. -/
theorem mul_recip_clip (a d : EReal) :
    a * Ideal.div (Ideal.ofBits .f32 0x3F800000#32) (max (Ideal.ofBits .f32 0x3F800000#32) d)
      = Ideal.div a (max (Ideal.ofBits .f32 0x3F800000#32) d) := by
  rw [recip_clip]
  unfold Ideal.div
  rw [if_neg (clip_ne_zero d)]

end Cert.LibRecipClip

end
-- ==== Proof.Spec.lean ====
/-
  Two graph-convolution layers, entry by entry, over the extended reals.

  A layer combines, for node r and output channel j, the MEAN of the neighbours' feature rows with the node's own
  row:  (sum over k of mean(r,k) * Wl(j,k)) + b(j) + (sum over k of x(r,k) * Wr(j,k)).  The first layer then
  normalises with running statistics, (h - mean_j) scaled by gamma_j / sqrt(var_j + eps), shifts by beta_j and
  clamps at zero.

  The mean is the neighbour SUM divided by the clipped degree c(r) = max(1, deg r). One program divides,
  num(r,k) / c(r); the other multiplies by a reciprocal computed once per node, num(r,k) * (1 / c(r)). Since
  c(r) >= 1 is never zero, the quotient by it IS the product with its inverse, for every extended real numerator,
  so the two agree with no finiteness assumption. Likewise ((h - m) * r) * g = (h - m) * (g * r) is associativity and
  commutativity of the product on the extended reals, which hold at the infinities too.
-/
import Idealize.ShloMosaic.PureOps.Ideal
import Idealize.ShloMosaic.PureOps.Ideal.Laws
import Idealize.ShloMosaic.Lib.IdealHost
import Idealize.ShloMosaic.Lib.ValueIdx
import proofs.«167576_j80676665688561_1_alg».proof.Proof.LibRecipClip

noncomputable section

namespace Cert.Sage

open Idealize.ShloMosaic Idealize.ShloMosaic.ValueIdx

/-- The f32 words of 1, 0 and the variance offset, read as extended reals. -/
abbrev one : EReal := Ideal.ofBits .f32 0x3F800000#32
abbrev zero : EReal := Ideal.ofBits .f32 0x00000000#32
abbrev eps : EReal := Ideal.ofBits .f32 0x3727C5AC#32

/-- Multiplying by the reciprocal of a clipped degree is dividing by it, for every extended real numerator. -/
theorem mul_recip_clip (a d : EReal) : a * Ideal.div one (max one d) = Ideal.div a (max one d) :=
  Cert.LibRecipClip.mul_recip_clip a d

/-- Scaling by the inverse deviation and then by gamma is scaling by their product. -/
theorem scale_assoc (a r g : EReal) : a * r * g = a * (g * r) := by
  rw [mul_assoc, mul_comm r g]

section Layers

variable {n d : ℕ}

/-- The linear part of a layer at node `r`, channel `j`, from the mean `agg` already formed. -/
def dense (agg : Fin n → Fin 128 → EReal) (x : (⟨2, ![n, 128]⟩ : Shape).Idx → EReal)
    (Wl Wr : (⟨2, ![d, 128]⟩ : Shape).Idx → EReal) (b : (⟨1, ![d]⟩ : Shape).Idx → EReal) (r : Fin n) (j : Fin d) : EReal :=
  (∑ k : Fin 128, agg r k * Wl (ix2 j k)) + b (ix1 j) + ∑ k : Fin 128, x (ix2 r k) * Wr (ix2 j k)

/-- The mean as a quotient by the clipped degree `c`. -/
def meanDiv (num : (⟨2, ![n, 128]⟩ : Shape).Idx → EReal) (c : (⟨1, ![n]⟩ : Shape).Idx → EReal) (r : Fin n) (k : Fin 128) : EReal :=
  Ideal.div (num (ix2 r k)) (c (ix1 r))

/-- The mean as a product with a column `s` of reciprocals. -/
def meanMul (num : (⟨2, ![n, 128]⟩ : Shape).Idx → EReal) (s : (⟨2, ![n, 1]⟩ : Shape).Idx → EReal) (r : Fin n) (k : Fin 128) : EReal :=
  num (ix2 r k) * s (ix2 r (0 : Fin 1))

/-- Normalise, scale by `sc` in the order the reference does (inverse deviation first, then gamma), shift, clamp. -/
def normRef (h : EReal) (gamma beta mean var : (⟨1, ![128]⟩ : Shape).Idx → EReal) (j : Fin 128) : EReal :=
  max ((h - mean (ix1 j)) * Ideal.rsqrt (var (ix1 j) + eps) * gamma (ix1 j) + beta (ix1 j)) zero

/-- The same with the two scales multiplied first. -/
def normFused (h : EReal) (gamma beta mean var : (⟨1, ![128]⟩ : Shape).Idx → EReal) (j : Fin 128) : EReal :=
  max ((h - mean (ix1 j)) * (gamma (ix1 j) * Ideal.rsqrt (var (ix1 j) + eps)) + beta (ix1 j)) zero

theorem normFused_eq (h : EReal) (gamma beta mean var : (⟨1, ![128]⟩ : Shape).Idx → EReal) (j : Fin 128) :
    normFused h gamma beta mean var j = normRef h gamma beta mean var j := by
  unfold normFused normRef
  rw [scale_assoc]

/-- When the reciprocal column is one over the clipped degree, the two means are one function. -/
theorem meanMul_eq (num : (⟨2, ![n, 128]⟩ : Shape).Idx → EReal) (s : (⟨2, ![n, 1]⟩ : Shape).Idx → EReal)
    (deg : (⟨1, ![n]⟩ : Shape).Idx → EReal) (c : (⟨1, ![n]⟩ : Shape).Idx → EReal)
    (hc : ∀ r : Fin n, c (ix1 r) = max one (deg (ix1 r)))
    (hs : ∀ r : Fin n, s (ix2 r (0 : Fin 1)) = Ideal.div one (c (ix1 r))) :
    meanMul num s = meanDiv num c := by
  funext r k
  unfold meanMul meanDiv
  rw [hs r, hc r]
  exact mul_recip_clip _ _

/-- The first layer in the reference's spelling, as an array. -/
def layer1Ref (num x : (⟨2, ![n, 128]⟩ : Shape).Idx → EReal) (c : (⟨1, ![n]⟩ : Shape).Idx → EReal)
    (Wl Wr : (⟨2, ![128, 128]⟩ : Shape).Idx → EReal) (b gamma beta mean var : (⟨1, ![128]⟩ : Shape).Idx → EReal) :
    (⟨2, ![n, 128]⟩ : Shape).Idx → EReal :=
  fun i => normRef (dense (meanDiv num c) x Wl Wr b (i 0) (i 1)) gamma beta mean var (i 1)

/-- The first layer in the kernel's spelling, as an array. -/
def layer1Ker (num x : (⟨2, ![n, 128]⟩ : Shape).Idx → EReal) (s : (⟨2, ![n, 1]⟩ : Shape).Idx → EReal)
    (Wl Wr : (⟨2, ![128, 128]⟩ : Shape).Idx → EReal) (b gamma beta mean var : (⟨1, ![128]⟩ : Shape).Idx → EReal) :
    (⟨2, ![n, 128]⟩ : Shape).Idx → EReal :=
  fun i => normFused (dense (meanMul num s) x Wl Wr b (i 0) (i 1)) gamma beta mean var (i 1)

/-- The second layer in the reference's spelling. -/
def layer2Ref (num h : (⟨2, ![n, 128]⟩ : Shape).Idx → EReal) (c : (⟨1, ![n]⟩ : Shape).Idx → EReal)
    (Wl Wr : (⟨2, ![64, 128]⟩ : Shape).Idx → EReal) (b : (⟨1, ![64]⟩ : Shape).Idx → EReal) :
    (⟨2, ![n, 64]⟩ : Shape).Idx → EReal :=
  fun i => dense (meanDiv num c) h Wl Wr b (i 0) (i 1)

/-- The second layer in the kernel's spelling. -/
def layer2Ker (num h : (⟨2, ![n, 128]⟩ : Shape).Idx → EReal) (s : (⟨2, ![n, 1]⟩ : Shape).Idx → EReal)
    (Wl Wr : (⟨2, ![64, 128]⟩ : Shape).Idx → EReal) (b : (⟨1, ![64]⟩ : Shape).Idx → EReal) :
    (⟨2, ![n, 64]⟩ : Shape).Idx → EReal :=
  fun i => dense (meanMul num s) h Wl Wr b (i 0) (i 1)

theorem layer1Ker_eq (num x : (⟨2, ![n, 128]⟩ : Shape).Idx → EReal) (s : (⟨2, ![n, 1]⟩ : Shape).Idx → EReal)
    (deg c : (⟨1, ![n]⟩ : Shape).Idx → EReal)
    (Wl Wr : (⟨2, ![128, 128]⟩ : Shape).Idx → EReal) (b gamma beta mean var : (⟨1, ![128]⟩ : Shape).Idx → EReal)
    (hc : ∀ r : Fin n, c (ix1 r) = max one (deg (ix1 r)))
    (hs : ∀ r : Fin n, s (ix2 r (0 : Fin 1)) = Ideal.div one (c (ix1 r))) :
    layer1Ker num x s Wl Wr b gamma beta mean var = layer1Ref num x c Wl Wr b gamma beta mean var := by
  funext i
  unfold layer1Ker layer1Ref
  rw [meanMul_eq num s deg c hc hs]
  exact normFused_eq _ _ _ _ _ _

theorem layer2Ker_eq (num h : (⟨2, ![n, 128]⟩ : Shape).Idx → EReal) (s : (⟨2, ![n, 1]⟩ : Shape).Idx → EReal)
    (deg c : (⟨1, ![n]⟩ : Shape).Idx → EReal)
    (Wl Wr : (⟨2, ![64, 128]⟩ : Shape).Idx → EReal) (b : (⟨1, ![64]⟩ : Shape).Idx → EReal)
    (hc : ∀ r : Fin n, c (ix1 r) = max one (deg (ix1 r)))
    (hs : ∀ r : Fin n, s (ix2 r (0 : Fin 1)) = Ideal.div one (c (ix1 r))) :
    layer2Ker num h s Wl Wr b = layer2Ref num h c Wl Wr b := by
  funext i
  unfold layer2Ker layer2Ref
  rw [meanMul_eq num s deg c hc hs]

/-- A layer's linear part at a row depends on that row of the mean and of the features only: two pairs of arrays
    that agree on a row (the second pair's row `r'`) give the same value. -/
theorem dense_congr {n' : ℕ} (agg : Fin n → Fin 128 → EReal) (agg' : Fin n' → Fin 128 → EReal)
    (x : (⟨2, ![n, 128]⟩ : Shape).Idx → EReal) (x' : (⟨2, ![n', 128]⟩ : Shape).Idx → EReal)
    (Wl Wr : (⟨2, ![d, 128]⟩ : Shape).Idx → EReal) (b : (⟨1, ![d]⟩ : Shape).Idx → EReal) (r : Fin n) (r' : Fin n') (j : Fin d)
    (hagg : ∀ k, agg r k = agg' r' k) (hx : ∀ k, x (ix2 r k) = x' (ix2 r' k)) :
    dense agg x Wl Wr b r j = dense agg' x' Wl Wr b r' j := by
  unfold dense
  have h1 : (∑ k : Fin 128, agg r k * Wl (ix2 j k)) = ∑ k : Fin 128, agg' r' k * Wl (ix2 j k) :=
    Finset.sum_congr rfl fun k _ => by rw [hagg k]
  have h2 : (∑ k : Fin 128, x (ix2 r k) * Wr (ix2 j k)) = ∑ k : Fin 128, x' (ix2 r' k) * Wr (ix2 j k) :=
    Finset.sum_congr rfl fun k _ => by rw [hx k]
  rw [h1, h2]

/-- Entry (r', j) of the first layer, in the kernel's spelling, read off a block: if row `r` of the block arrays is
    row `r'` of the whole arrays, the block's value at (r, j) is the whole array's at (r', j). -/
theorem layer1Ker_row {n' : ℕ} (num x : (⟨2, ![n, 128]⟩ : Shape).Idx → EReal) (s : (⟨2, ![n, 1]⟩ : Shape).Idx → EReal)
    (num' x' : (⟨2, ![n', 128]⟩ : Shape).Idx → EReal) (s' : (⟨2, ![n', 1]⟩ : Shape).Idx → EReal)
    (Wl Wr : (⟨2, ![128, 128]⟩ : Shape).Idx → EReal) (b gamma beta mean var : (⟨1, ![128]⟩ : Shape).Idx → EReal)
    (r : Fin n) (r' : Fin n') (j : Fin 128)
    (hnum : ∀ k, num (ix2 r k) = num' (ix2 r' k)) (hs : s (ix2 r (0 : Fin 1)) = s' (ix2 r' (0 : Fin 1)))
    (hx : ∀ k, x (ix2 r k) = x' (ix2 r' k)) :
    normFused (dense (meanMul num s) x Wl Wr b r j) gamma beta mean var j
      = layer1Ker num' x' s' Wl Wr b gamma beta mean var (ix2 r' j) := by
  show _ = normFused (dense (meanMul num' s') x' Wl Wr b r' j) gamma beta mean var j
  rw [dense_congr (meanMul num s) (meanMul num' s') x x' Wl Wr b r r' j (fun k => by unfold meanMul; rw [hnum k, hs]) hx]

/-- The same for the second layer. -/
theorem layer2Ker_row {n' : ℕ} (num x : (⟨2, ![n, 128]⟩ : Shape).Idx → EReal) (s : (⟨2, ![n, 1]⟩ : Shape).Idx → EReal)
    (num' x' : (⟨2, ![n', 128]⟩ : Shape).Idx → EReal) (s' : (⟨2, ![n', 1]⟩ : Shape).Idx → EReal)
    (Wl Wr : (⟨2, ![64, 128]⟩ : Shape).Idx → EReal) (b : (⟨1, ![64]⟩ : Shape).Idx → EReal)
    (r : Fin n) (r' : Fin n') (j : Fin 64)
    (hnum : ∀ k, num (ix2 r k) = num' (ix2 r' k)) (hs : s (ix2 r (0 : Fin 1)) = s' (ix2 r' (0 : Fin 1)))
    (hx : ∀ k, x (ix2 r k) = x' (ix2 r' k)) :
    dense (meanMul num s) x Wl Wr b r j = layer2Ker num' x' s' Wl Wr b (ix2 r' j) := by
  show _ = dense (meanMul num' s') x' Wl Wr b r' j
  rw [dense_congr (meanMul num s) (meanMul num' s') x x' Wl Wr b r r' j (fun k => by unfold meanMul; rw [hnum k, hs]) hx]

end Layers

end Cert.Sage

end
-- ==== Proof.LibLayout.lean ====
/-
  Unit axes added by a shape cast and filled by a broadcast, read at coordinates.

  A row statistic (a maximum or a sum along the last axis of an `[a, b]` array) comes back as an `[a]` vector; to
  combine it with the array again it is cast to a column `[a, 1]` and broadcast to `[a, b]`: entry (p, c) of the
  result is entry p of the vector. The same happens one rank up when every row of one `[a, c]` array is paired with
  every row of another `[b, c]` array: the first is cast to `[a, 1, c]` and broadcast along the new middle axis, the
  second, as `[1, b, c]`, along a new leading axis; entry (p, q, l) of the two results is entry (p, l) of the first and
  entry (q, l) of the second. Each lemma states one such step for arbitrary extents; a cast keeps the row-major
  position, a broadcast reads coordinate 0 on an axis of extent one and the same coordinate elsewhere.
-/
import Idealize.ShloMosaic.Lib.ValueLayout
import Idealize.ShloMosaic.Lib.Pipeline.Value
import Idealize.ShloMosaic.Lib.ValueIdx

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, c]` array cast to `[a, 1, c]` reads, at `(i, u, l)`, the operand at `(i, l)`. -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (l : Fin c) : shapeCast ⟨3, ![a, 1, c]⟩ x h (ix3 i u l) = x (ix2 i l) :=
  shapeCast_apply x h _ _ (by
    have hu : u.val = 0 := by omega
    rw [Shape.rowMajor_val_three, Shape.rowMajor_val_two]
    show i.val * c + l.val = (i.val * 1 + u.val) * c + l.val
    rw [hu, Nat.mul_one, Nat.add_zero])

/-- An `[a, 1, c]` array broadcast to `[a, b, c]` reads, at `(p, q, l)`, the operand at `(p, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (l : Fin c) :
    broadcastTo ⟨3, ![a, b, c]⟩ v h (ix3 p q l) = v (ix3 p (0 : Fin 1) l) := by
  refine broadcastTo_apply v h (ix3 p q l) (ix3 p (0 : Fin 1) l) fun ax => ?_
  match ax with
  | ⟨0, _⟩ =>
    show p.val = if a = 1 then 0 else p.val
    split
    · have := p.isLt; omega
    · rfl
  | ⟨1, _⟩ => rfl
  | ⟨2, _⟩ =>
    show l.val = if c = 1 then 0 else l.val
    split
    · have := l.isLt; omega
    · rfl

/-- A `[1, b, c]` array broadcast to `[a, b, c]` reads, at `(p, q, l)`, the operand at `(0, q, l)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (l : Fin c) :
    broadcastTo ⟨3, ![a, b, c]⟩ v h (ix3 p q l) = v (ix3 (0 : Fin 1) q l) := by
  refine broadcastTo_apply v h (ix3 p q l) (ix3 (0 : Fin 1) q l) fun ax => ?_
  match ax with
  | ⟨0, _⟩ => rfl
  | ⟨1, _⟩ =>
    show q.val = if b = 1 then 0 else q.val
    split
    · have := q.isLt; omega
    · rfl
  | ⟨2, _⟩ =>
    show l.val = if c = 1 then 0 else l.val
    split
    · have := l.isLt; omega
    · rfl

end Cert.LibLayout

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.Payload.lean ====
/-
  What each kernel body stores, entry by entry.

  Both bodies work on a block of 2000 node rows. Entry (p, q) of the first body's stored block is the first layer
  (in the kernel's spelling: the mean as a product with the reciprocal column, the two normalisation scales
  multiplied first) of row p of the loaded blocks; entry (p, q) of the second body's stored block is the second layer
  of row p. The matrix products contract the feature axis against the TRANSPOSED weight, so the weight is read at
  (q, k); a change of float format is the identity on the extended reals.
-/
import proofs.«167576_j80676665688561_1_alg».proof.Proof.Gen.KernelIdeal.Skeleton
import proofs.«167576_j80676665688561_1_alg».proof.Proof.Spec
import proofs.«167576_j80676665688561_1_alg».proof.Proof.LibLayout
import proofs.«167576_j80676665688561_1_alg».proof.Proof.LibPlainDot
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-- A row of 128 channel values spread down 2000 rows reads, at (p, q), the row's entry q. -/
theorem row128_apply (v : FVec Ideal S128 .f32) (p : Fin 2000) (q : Fin 128) :
    broadcastTo S2000x128 (shapeCast S1x128 v shapeCasts_S128_S1x128) broadcasts_S1x128_S2000x128 (ix2 p q) = v (ix1 q) :=
  (broadcastTo_1b_ab_apply _ broadcasts_S1x128_S2000x128 p q).trans (shapeCast_a_1a_apply v shapeCasts_S128_S1x128 0 q)

/-- A row of 64 channel values spread down 2000 rows reads, at (p, q), the row's entry q. -/
theorem row64_apply (v : FVec Ideal S64 .f32) (p : Fin 2000) (q : Fin 64) :
    broadcastTo S2000x64 (shapeCast S1x64 v shapeCasts_S64_S1x64) broadcasts_S1x64_S2000x64 (ix2 p q) = v (ix1 q) :=
  (broadcastTo_1b_ab_apply _ broadcasts_S1x64_S2000x64 p q).trans (shapeCast_a_1a_apply v shapeCasts_S64_S1x64 0 q)

/-- The mean as the body forms it: the neighbour-sum block times the reciprocal column spread along the rows. -/
theorem mean_apply (x0 : FVec Ideal S2000x128 .f32) (x1 : FVec Ideal S2000x1 .f32) (p : Fin 2000) (k : Fin 128) :
    mulf x0 (broadcastTo S2000x128 x1 broadcasts_S2000x1_S2000x128) (ix2 p k) = Cert.Sage.meanMul x0 x1 p k := by
  show x0 (ix2 p k) * broadcastTo S2000x128 x1 broadcasts_S2000x1_S2000x128 (ix2 p k) = _
  rw [Cert.LibLayout.broadcastTo_a1_ab_apply x1 broadcasts_S2000x1_S2000x128 p k]
  rfl

/-- A product with a transposed 128 x 128 weight into a zero accumulator, at (p, q): the weight read at (q, k). -/
theorem dotT128_apply (A : FVec Ideal S2000x128 .bf16) (W : FVec Ideal S128x128 .f32) (p : Fin 2000) (q : Fin 128) :
    matmul dot_S2000x128_S128x128_S2000x128_1_0_0_1_n_n none A
        (transpose S128x128 [1, 0] (truncf .bf16 W bitsLt_bf16_f32 : FVec Ideal S128x128 .bf16) transposes_S128x128_p1_0_S128x128)
        (constant S2000x128 .f32 0x00000000#32) (ix2 p q)
      = ∑ k : Fin 128, A (ix2 p k) * W (ix2 q k) := by
  refine (Cert.Sage.matmul_plain_zero_apply (M := 2000) (K := 128) (N := 128) none A _ p q).trans ?_
  refine Finset.sum_congr rfl fun k _ => ?_
  rw [transpose_ix2_apply (a := 128) (b := 128) _ transposes_S128x128_p1_0_S128x128 k q]
  rfl

/-- A product with a transposed 64 x 128 weight into a zero accumulator, at (p, q): the weight read at (q, k). -/
theorem dotT64_apply (A : FVec Ideal S2000x128 .bf16) (W : FVec Ideal S64x128 .f32) (p : Fin 2000) (q : Fin 64) :
    matmul dot_S2000x128_S128x64_S2000x64_1_0_0_1_n_n none A
        (transpose S128x64 [1, 0] (truncf .bf16 W bitsLt_bf16_f32 : FVec Ideal S64x128 .bf16) transposes_S64x128_p1_0_S128x64)
        (constant S2000x64 .f32 0x00000000#32) (ix2 p q)
      = ∑ k : Fin 128, A (ix2 p k) * W (ix2 q k) := by
  refine (Cert.Sage.matmul_plain_zero_apply (M := 2000) (K := 128) (N := 64) none A _ p q).trans ?_
  refine Finset.sum_congr rfl fun k _ => ?_
  rw [transpose_ix2_apply (a := 64) (b := 128) _ transposes_S64x128_p1_0_S128x64 k q]
  rfl

/-- Entry (p, q) of what the first body stores: the first layer, in the kernel's spelling, of row p of the blocks. -/
theorem pay0_apply (x0 : Vec Ideal S2000x128 .f32) (x1 : Vec Ideal S2000x1 .f32) (x2 : Vec Ideal S2000x128 .f32)
    (x3 x5 : Vec Ideal S128x128 .f32) (x4 x6 x7 x8 x9 : Vec Ideal S128 .f32) (p : Fin 2000) (q : Fin 128) :
    k0_pay1 (k0_pay2 x0 x1 x2 x3 x5 x4 x6 x9 x8 x7) (k0_pay3 (F := Ideal)) (ix2 p q)
      = Cert.Sage.normFused (Cert.Sage.dense (Cert.Sage.meanMul x0 x1) x2 x3 x5 x4 p q) x6 x7 x8 x9 q := by
  unfold k0_pay1 k0_pay2 k0_pay3 Cert.Sage.normFused Cert.Sage.dense
  simp only [maximumf_apply, addf_apply, mulf_apply, subf_apply, row128_apply, broadcast_apply, shapeCast_self]
  rw [dotT128_apply, dotT128_apply]
  simp only [mean_apply, truncf_apply]
  rfl

/-- Entry (p, q) of what the second body stores: the second layer, in the kernel's spelling, of row p of the blocks. -/
theorem pay1_apply (x0 : Vec Ideal S2000x128 .f32) (x1 : Vec Ideal S2000x1 .f32) (x2 : Vec Ideal S2000x128 .f32)
    (x3 x5 : Vec Ideal S64x128 .f32) (x4 : Vec Ideal S64 .f32) (p : Fin 2000) (q : Fin 64) :
    k1_pay1 x0 x1 x2 x3 x5 x4 (ix2 p q) = Cert.Sage.dense (Cert.Sage.meanMul x0 x1) x2 x3 x5 x4 p q := by
  unfold k1_pay1 Cert.Sage.dense
  simp only [addf_apply, row64_apply, shapeCast_self]
  rw [dotT64_apply, dotT64_apply]
  simp only [mean_apply, truncf_apply]

end Cert.KernelIdeal.Pay

end
-- ==== Proof.Blocks0.lean ====
/-
  The first dense layer, from blocks to the whole array.

  The grid has 25 points; point t works on node rows 2000 t … 2000 t + 1999: the neighbour-sum, reciprocal-degree and
  feature windows and the output window all carry block index (t, 0), and the seven weight and statistics windows
  always carry their whole array. So what point t writes back is rows 2000 t … of ONE function of the arrays as the
  grid finds them — the first layer in the kernel's spelling — and since the 25 row blocks tile the 50000 rows, the
  output array ends holding that function everywhere.
-/
import proofs.«167576_j80676665688561_1_alg».proof.Proof.Gen.KernelIdeal.Frame
import proofs.«167576_j80676665688561_1_alg».proof.Proof.Payload
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The first layer, in the kernel's spelling, of the arrays as the first grid finds them. -/
def layer1Of (c : Dev nD) : Buf (Elt Ideal) ((c : Thread nD τ).loc main_v22) :=
  Cert.Sage.layer1Ker (n := 50000) (V c main_v21) (V c main_arg0) (V c main_v11) (V c main_arg2) (V c main_arg4) (V c main_arg3)
    (V c main_arg5) (V c main_arg6) (V c main_arg7) (V c main_arg8)

/-- The printed index maps over the 25 points: the row-blocked windows carry (t, 0), the others (0, …). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_10.index t (0 : Fin 2) = t.val ∧ win0_10.index t (1 : Fin 2) = 0
    ∧ win0_3.index t (0 : Fin 2) = 0 ∧ win0_3.index t (1 : Fin 2) = 0
    ∧ win0_5.index t (0 : Fin 2) = 0 ∧ win0_5.index t (1 : Fin 2) = 0
    ∧ win0_4.index t (0 : Fin 1) = 0 ∧ win0_6.index t (0 : Fin 1) = 0 ∧ win0_7.index t (0 : Fin 1) = 0
    ∧ win0_8.index t (0 : Fin 1) = 0 ∧ win0_9.index t (0 : Fin 1) = 0 :=
  (by decide +kernel : ∀ t : Fin grid0.N, _)

/-- A weight window's block is its whole array. -/
theorem blk0_3 (c : Dev nD) (t : Fin cfg0.N) : iblk0 V c 3 t = V c main_arg2 := by
  obtain ⟨-, -, -, -, -, -, -, -, e0, e1, -⟩ := idx0 t
  funext y
  show V c main_arg2 (((cfg0.win 3).blk t).view.emb y) = V c main_arg2 y
  refine congrArg (V c main_arg2) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem blk0_5 (c : Dev nD) (t : Fin cfg0.N) : iblk0 V c 5 t = V c main_arg4 := by
  obtain ⟨-, -, -, -, -, -, -, -, -, -, e0, e1, -⟩ := idx0 t
  funext y
  show V c main_arg4 (((cfg0.win 5).blk t).view.emb y) = V c main_arg4 y
  refine congrArg (V c main_arg4) (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

theorem blk0_4 (c : Dev nD) (t : Fin cfg0.N) : iblk0 V c 4 t = V c main_arg3 := by
  obtain ⟨-, -, -, -, -, -, -, -, -, -, -, -, e, -⟩ := idx0 t
  funext y
  show V c main_arg3 (((cfg0.win 4).blk t).view.emb y) = V c main_arg3 y
  refine congrArg (V c main_arg3) (funext fun a => Fin.ext ?_)
  match a with
  | ⟨0, _⟩ => show win0_4.index t (0 : Fin 1) * 128 + 1 * (y 0).val = (y 0).val; rw [e]; omega

theorem blk0_6 (c : Dev nD) (t : Fin cfg0.N) : iblk0 V c 6 t = V c main_arg5 := by
  obtain ⟨-, -, -, -, -, -, -, -, -, -, -, -, -, e, -⟩ := idx0 t
  funext y
  show V c main_arg5 (((cfg0.win 6).blk t).view.emb y) = V c main_arg5 y
  refine congrArg (V c main_arg5) (funext fun a => Fin.ext ?_)
  match a with
  | ⟨0, _⟩ => show win0_6.index t (0 : Fin 1) * 128 + 1 * (y 0).val = (y 0).val; rw [e]; omega

theorem blk0_7 (c : Dev nD) (t : Fin cfg0.N) : iblk0 V c 7 t = V c main_arg6 := by
  obtain ⟨-, -, -, -, -, -, -, -, -, -, -, -, -, -, e, -⟩ := idx0 t
  funext y
  show V c main_arg6 (((cfg0.win 7).blk t).view.emb y) = V c main_arg6 y
  refine congrArg (V c main_arg6) (funext fun a => Fin.ext ?_)
  match a with
  | ⟨0, _⟩ => show win0_7.index t (0 : Fin 1) * 128 + 1 * (y 0).val = (y 0).val; rw [e]; omega

theorem blk0_8 (c : Dev nD) (t : Fin cfg0.N) : iblk0 V c 8 t = V c main_arg7 := by
  obtain ⟨-, -, -, -, -, -, -, -, -, -, -, -, -, -, -, e, -⟩ := idx0 t
  funext y
  show V c main_arg7 (((cfg0.win 8).blk t).view.emb y) = V c main_arg7 y
  refine congrArg (V c main_arg7) (funext fun a => Fin.ext ?_)
  match a with
  | ⟨0, _⟩ => show win0_8.index t (0 : Fin 1) * 128 + 1 * (y 0).val = (y 0).val; rw [e]; omega

theorem blk0_9 (c : Dev nD) (t : Fin cfg0.N) : iblk0 V c 9 t = V c main_arg8 := by
  obtain ⟨-, -, -, -, -, -, -, -, -, -, -, -, -, -, -, -, e⟩ := idx0 t
  funext y
  show V c main_arg8 (((cfg0.win 9).blk t).view.emb y) = V c main_arg8 y
  refine congrArg (V c main_arg8) (funext fun a => Fin.ext ?_)
  match a with
  | ⟨0, _⟩ => show win0_9.index t (0 : Fin 1) * 128 + 1 * (y 0).val = (y 0).val; rw [e]; omega

/-- Row p of the neighbour-sum block at point t is row 2000 t + p of the array. -/
theorem blk0_0 (c : Dev nD) (t : Fin cfg0.N) (p : Fin 2000) (k : Fin 128) (r : Fin 50000) (hr : r.val = 2000 * t.val + p.val) :
    iblk0 V c 0 t (ix2 p k) = V c main_v21 (ix2 r k) := by
  obtain ⟨e0, e1, -⟩ := idx0 t
  show V c main_v21 (((cfg0.win 0).blk t).view.emb (ix2 p k)) = V c main_v21 (ix2 r k)
  refine congrArg (V c main_v21) (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- Row p of the reciprocal-degree block at point t is row 2000 t + p of the column. -/
theorem blk0_1 (c : Dev nD) (t : Fin cfg0.N) (p : Fin 2000) (r : Fin 50000) (hr : r.val = 2000 * t.val + p.val) :
    iblk0 V c 1 t (ix2 p (0 : Fin 1)) = V c main_v11 (ix2 r (0 : Fin 1)) := by
  obtain ⟨-, -, e0, e1, -⟩ := idx0 t
  show V c main_v11 (((cfg0.win 1).blk t).view.emb (ix2 p (0 : Fin 1))) = V c main_v11 (ix2 r (0 : Fin 1))
  refine congrArg (V c main_v11) (funext fun a => Fin.ext ?_)
  match a with
  | ⟨0, _⟩ => show win0_1.index t (0 : Fin 2) * 2000 + 1 * p.val = r.val; rw [e0, hr]; omega
  | ⟨1, _⟩ => show win0_1.index t (1 : Fin 2) * 1 + 1 * 0 = 0; rw [e1]

/-- Row p of the feature block at point t is row 2000 t + p of the array. -/
theorem blk0_2 (c : Dev nD) (t : Fin cfg0.N) (p : Fin 2000) (k : Fin 128) (r : Fin 50000) (hr : r.val = 2000 * t.val + p.val) :
    iblk0 V c 2 t (ix2 p k) = V c main_arg0 (ix2 r k) := by
  obtain ⟨-, -, -, -, e0, e1, -⟩ := idx0 t
  show V c main_arg0 (((cfg0.win 2).blk t).view.emb (ix2 p k)) = V c main_arg0 (ix2 r k)
  refine congrArg (V c main_arg0) (funext fun a => Fin.ext ?_)
  match a with
  | ⟨0, _⟩ => show win0_2.index t (0 : Fin 2) * 2000 + 1 * p.val = r.val; rw [e0, hr]; omega
  | ⟨1, _⟩ => show win0_2.index t (1 : Fin 2) * 128 + 1 * k.val = k.val; rw [e1]; omega

/-- What point t writes back is rows 2000 t … of the first layer of the arrays as the grid finds them. -/
theorem flushed0_eq (c : Dev nD) (t : Fin cfg0.N) :
    (dat0 V c).flushed 10 t = ((cfg0.win 10).blk t).view.read (Elt Ideal) (layer1Of V c) := by
  show (cfg0.win 10).cut (grid0.coords t) ((dat0 V c).after 10 t) = _
  rw [after0_10]
  unfold out0_10
  rw [View.canon_unit_zero hz2]
  simp only [View.ld_unit_zero (S := S2000x128) hz2, View.ld_unit_zero (S := S2000x1) hz2,
    View.ld_unit_zero (S := S128x128) hz2, View.ld_unit_zero (S := S128) hz1]
  rw [blk0_3, blk0_4, blk0_5, blk0_6, blk0_7, blk0_8, blk0_9]
  have ht : t.val < 25 := by have h := t.isLt; have hN : cfg0.N = 25 := N_0; omega
  obtain ⟨-, -, -, -, -, -, e0, e1, -⟩ := idx0 t
  funext y
  obtain ⟨p, q, rfl⟩ : ∃ (p : Fin 2000) (q : Fin 128), y = ix2 p q := ⟨y 0, y 1, eq_ix2 y⟩
  have hemb : ((cfg0.win 10).blk t).view.emb (ix2 p q) = ix2 (⟨2000 * t.val + p.val, by omega⟩ : Fin 50000) q := by
    funext a; apply Fin.ext
    match a with
    | ⟨0, _⟩ => show win0_10.index t (0 : Fin 2) * 2000 + 1 * p.val = 2000 * t.val + p.val; rw [e0]; omega
    | ⟨1, _⟩ => show win0_10.index t (1 : Fin 2) * 128 + 1 * q.val = q.val; rw [e1]; omega
  show k0_pay1 (k0_pay2 (iblk0 V c 0 t) (iblk0 V c 1 t) (iblk0 V c 2 t) (V c main_arg2) (V c main_arg4) (V c main_arg3)
      (V c main_arg5) (V c main_arg8) (V c main_arg7) (V c main_arg6)) (k0_pay3 (F := Ideal)) (ix2 p q)
    = layer1Of V c (((cfg0.win 10).blk t).view.emb (ix2 p q))
  rw [hemb]
  refine (Cert.KernelIdeal.Pay.pay0_apply (iblk0 V c 0 t) (iblk0 V c 1 t) (iblk0 V c 2 t) (V c main_arg2) (V c main_arg4)
    (V c main_arg3) (V c main_arg5) (V c main_arg6) (V c main_arg7) (V c main_arg8) p q).trans ?_
  exact Cert.Sage.layer1Ker_row (n := 2000) (n' := 50000) (iblk0 V c 0 t) (iblk0 V c 2 t) (iblk0 V c 1 t)
    (V c main_v21) (V c main_arg0) (V c main_v11) (V c main_arg2) (V c main_arg4) (V c main_arg3) (V c main_arg5)
    (V c main_arg6) (V c main_arg7) (V c main_arg8) p ⟨2000 * t.val + p.val, by omega⟩ q
    (fun k => blk0_0 V c t p k _ rfl) (blk0_1 V c t p _ rfl) (fun k => blk0_2 V c t p k _ rfl)

/-- An index of the array is in point t's block iff each coordinate is in the block's range on its axis. -/
theorem mem_blk0 (t : Fin cfg0.N) (i : S50000x128.Idx) :
    i ∈ ((cfg0.win 10).blk t).view.set ↔ ∀ a : Fin 2, win0_10.index t a * S2000x128.size a ≤ (i a).val ∧ (i a).val < win0_10.index t a * S2000x128.size a + S2000x128.size a := by
  show i ∈ ((View.whole main_v22).slice (win0_10.rect t)).set ↔ _
  rw [View.set_slice_whole, Rect.mem_set_unit]
  exact Iff.rfl

/-- The 25 row blocks tile the array: row r is in the block of point r / 2000. -/
theorem cover0 (i : S50000x128.Idx) : ∃ t : Fin cfg0.N, (cfg0.win 10).flush t = true ∧ i ∈ ((cfg0.win 10).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨-, -, -, -, -, -, e0, e1, -⟩ := idx0 t
  have ht : t.val = (i 0).val / 2000 := rfl
  refine ⟨t, flush0_10 t, ?_⟩
  rw [mem_blk0]
  intro a
  match a with
  | ⟨0, _⟩ => show win0_10.index t (0 : Fin 2) * 2000 ≤ (i 0).val ∧ (i 0).val < win0_10.index t (0 : Fin 2) * 2000 + 2000; rw [e0, ht]; omega
  | ⟨1, _⟩ => show win0_10.index t (1 : Fin 2) * 128 ≤ (i 1).val ∧ (i 1).val < win0_10.index t (1 : Fin 2) * 128 + 128; rw [e1]; omega

/-- After the first grid its output array is the first layer of the arrays as the grid found them. -/
theorem final0 (c : Dev nD) : (dat0 V c).arrAt 10 cfg0.N = layer1Of V c :=
  (dat0 V c).arrAt_eq_of_cover 10 (layer1Of V c) (fun t _ => flushed0_eq V c t) cover0

end Cert.KernelIdeal.Whole

end
-- ==== Proof.Blocks1.lean ====
/-
  The second dense layer, from blocks to the whole array.

  As in the first grid, point t of the 25 works on node rows 2000 t … 2000 t + 1999: the neighbour-sum,
  reciprocal-degree and hidden-feature windows and the output window carry block index (t, 0), the two weight
  windows and the bias window their whole arrays. What point t writes back is rows 2000 t … of the second layer (in
  the kernel's spelling) of the arrays as the grid finds them; the row blocks tile the 50000 rows, so the output
  array ends holding that function everywhere.
-/
import proofs.«167576_j80676665688561_1_alg».proof.Proof.Gen.KernelIdeal.Frame
import proofs.«167576_j80676665688561_1_alg».proof.Proof.Payload
import Idealize.ShloMosaic.Lib.Pipeline.Value

set_option maxRecDepth 16384

noncomputable section

namespace Cert.KernelIdeal.Whole2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The second layer, in the kernel's spelling, of the arrays as the second grid finds them. -/
def layer2Of (c : Dev nD) : Buf (Elt Ideal) ((c : Thread nD τ).loc main_v33) :=
  Cert.Sage.layer2Ker (n := 50000) (V c main_v32) (V c main_v22) (V c main_v11) (V c main_arg9) (V c main_arg11) (V c main_arg10)

/-- The printed index maps over the 25 points: the row-blocked windows carry (t, 0), the others (0, …). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_6.index t (0 : Fin 2) = t.val ∧ win1_6.index t (1 : Fin 2) = 0
    ∧ win1_3.index t (0 : Fin 2) = 0 ∧ win1_3.index t (1 : Fin 2) = 0
    ∧ win1_5.index t (0 : Fin 2) = 0 ∧ win1_5.index t (1 : Fin 2) = 0
    ∧ win1_4.index t (0 : Fin 1) = 0 :=
  (by decide +kernel : ∀ t : Fin grid1.N, _)

/-- A weight window's block is its whole array. -/
theorem blk1_3 (c : Dev nD) (t : Fin cfg1.N) : iblk1 V c 3 t = V c main_arg9 := by
  obtain ⟨-, -, -, -, -, -, -, -, e0, e1, -⟩ := idx1 t
  funext y
  show V c main_arg9 (((cfg1.win 3).blk t).view.emb y) = V c main_arg9 y
  refine congrArg (V c main_arg9) (funext fun a => Fin.ext ?_)
  match a with
  | ⟨0, _⟩ => show win1_3.index t (0 : Fin 2) * 64 + 1 * (y 0).val = (y 0).val; rw [e0]; omega
  | ⟨1, _⟩ => show win1_3.index t (1 : Fin 2) * 128 + 1 * (y 1).val = (y 1).val; rw [e1]; omega

theorem blk1_5 (c : Dev nD) (t : Fin cfg1.N) : iblk1 V c 5 t = V c main_arg11 := by
  obtain ⟨-, -, -, -, -, -, -, -, -, -, e0, e1, -⟩ := idx1 t
  funext y
  show V c main_arg11 (((cfg1.win 5).blk t).view.emb y) = V c main_arg11 y
  refine congrArg (V c main_arg11) (funext fun a => Fin.ext ?_)
  match a with
  | ⟨0, _⟩ => show win1_5.index t (0 : Fin 2) * 64 + 1 * (y 0).val = (y 0).val; rw [e0]; omega
  | ⟨1, _⟩ => show win1_5.index t (1 : Fin 2) * 128 + 1 * (y 1).val = (y 1).val; rw [e1]; omega

theorem blk1_4 (c : Dev nD) (t : Fin cfg1.N) : iblk1 V c 4 t = V c main_arg10 := by
  obtain ⟨-, -, -, -, -, -, -, -, -, -, -, -, e⟩ := idx1 t
  funext y
  show V c main_arg10 (((cfg1.win 4).blk t).view.emb y) = V c main_arg10 y
  refine congrArg (V c main_arg10) (funext fun a => Fin.ext ?_)
  match a with
  | ⟨0, _⟩ => show win1_4.index t (0 : Fin 1) * 64 + 1 * (y 0).val = (y 0).val; rw [e]; omega

/-- Row p of the neighbour-sum block at point t is row 2000 t + p of the array. -/
theorem blk1_0 (c : Dev nD) (t : Fin cfg1.N) (p : Fin 2000) (k : Fin 128) (r : Fin 50000) (hr : r.val = 2000 * t.val + p.val) :
    iblk1 V c 0 t (ix2 p k) = V c main_v32 (ix2 r k) := by
  obtain ⟨e0, e1, -⟩ := idx1 t
  show V c main_v32 (((cfg1.win 0).blk t).view.emb (ix2 p k)) = V c main_v32 (ix2 r k)
  refine congrArg (V c main_v32) (funext fun a => Fin.ext ?_)
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- Row p of the reciprocal-degree block at point t is row 2000 t + p of the column. -/
theorem blk1_1 (c : Dev nD) (t : Fin cfg1.N) (p : Fin 2000) (r : Fin 50000) (hr : r.val = 2000 * t.val + p.val) :
    iblk1 V c 1 t (ix2 p (0 : Fin 1)) = V c main_v11 (ix2 r (0 : Fin 1)) := by
  obtain ⟨-, -, e0, e1, -⟩ := idx1 t
  show V c main_v11 (((cfg1.win 1).blk t).view.emb (ix2 p (0 : Fin 1))) = V c main_v11 (ix2 r (0 : Fin 1))
  refine congrArg (V c main_v11) (funext fun a => Fin.ext ?_)
  match a with
  | ⟨0, _⟩ => show win1_1.index t (0 : Fin 2) * 2000 + 1 * p.val = r.val; rw [e0, hr]; omega
  | ⟨1, _⟩ => show win1_1.index t (1 : Fin 2) * 1 + 1 * 0 = 0; rw [e1]

/-- Row p of the hidden-feature block at point t is row 2000 t + p of the array. -/
theorem blk1_2 (c : Dev nD) (t : Fin cfg1.N) (p : Fin 2000) (k : Fin 128) (r : Fin 50000) (hr : r.val = 2000 * t.val + p.val) :
    iblk1 V c 2 t (ix2 p k) = V c main_v22 (ix2 r k) := by
  obtain ⟨-, -, -, -, e0, e1, -⟩ := idx1 t
  show V c main_v22 (((cfg1.win 2).blk t).view.emb (ix2 p k)) = V c main_v22 (ix2 r k)
  refine congrArg (V c main_v22) (funext fun a => Fin.ext ?_)
  match a with
  | ⟨0, _⟩ => show win1_2.index t (0 : Fin 2) * 2000 + 1 * p.val = r.val; rw [e0, hr]; omega
  | ⟨1, _⟩ => show win1_2.index t (1 : Fin 2) * 128 + 1 * k.val = k.val; rw [e1]; omega

/-- What point t writes back is rows 2000 t … of the second layer of the arrays as the grid finds them. -/
theorem flushed1_eq (c : Dev nD) (t : Fin cfg1.N) :
    (dat1 V c).flushed 6 t = ((cfg1.win 6).blk t).view.read (Elt Ideal) (layer2Of V c) := by
  show (cfg1.win 6).cut (grid1.coords t) ((dat1 V c).after 6 t) = _
  rw [after1_6]
  unfold out1_6
  rw [View.canon_unit_zero hz2]
  simp only [View.ld_unit_zero (S := S2000x128) hz2, View.ld_unit_zero (S := S2000x1) hz2,
    View.ld_unit_zero (S := S64x128) hz2, View.ld_unit_zero (S := S64) hz1]
  rw [blk1_3, blk1_4, blk1_5]
  have ht : t.val < 25 := by have h := t.isLt; have hN : cfg1.N = 25 := N_1; omega
  obtain ⟨-, -, -, -, -, -, e0, e1, -⟩ := idx1 t
  funext y
  obtain ⟨p, q, rfl⟩ : ∃ (p : Fin 2000) (q : Fin 64), y = ix2 p q := ⟨y 0, y 1, eq_ix2 y⟩
  have hemb : ((cfg1.win 6).blk t).view.emb (ix2 p q) = ix2 (⟨2000 * t.val + p.val, by omega⟩ : Fin 50000) q := by
    funext a; apply Fin.ext
    match a with
    | ⟨0, _⟩ => show win1_6.index t (0 : Fin 2) * 2000 + 1 * p.val = 2000 * t.val + p.val; rw [e0]; omega
    | ⟨1, _⟩ => show win1_6.index t (1 : Fin 2) * 64 + 1 * q.val = q.val; rw [e1]; omega
  show k1_pay1 (iblk1 V c 0 t) (iblk1 V c 1 t) (iblk1 V c 2 t) (V c main_arg9) (V c main_arg11) (V c main_arg10) (ix2 p q)
    = layer2Of V c (((cfg1.win 6).blk t).view.emb (ix2 p q))
  rw [hemb]
  refine (Cert.KernelIdeal.Pay.pay1_apply (iblk1 V c 0 t) (iblk1 V c 1 t) (iblk1 V c 2 t) (V c main_arg9) (V c main_arg11)
    (V c main_arg10) p q).trans ?_
  exact Cert.Sage.layer2Ker_row (n := 2000) (n' := 50000) (iblk1 V c 0 t) (iblk1 V c 2 t) (iblk1 V c 1 t)
    (V c main_v32) (V c main_v22) (V c main_v11) (V c main_arg9) (V c main_arg11) (V c main_arg10)
    p ⟨2000 * t.val + p.val, by omega⟩ q
    (fun k => blk1_0 V c t p k _ rfl) (blk1_1 V c t p _ rfl) (fun k => blk1_2 V c t p k _ rfl)

/-- An index of the array is in point t's block iff each coordinate is in the block's range on its axis. -/
theorem mem_blk1 (t : Fin cfg1.N) (i : S50000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v33).slice (win1_6.rect t)).set ↔ _
  rw [View.set_slice_whole, Rect.mem_set_unit]
  exact Iff.rfl

/-- The 25 row blocks tile the array: row r is in the block of point r / 2000. -/
theorem cover1 (i : S50000x64.Idx) : ∃ t : Fin cfg1.N, (cfg1.win 6).flush t = true ∧ i ∈ ((cfg1.win 6).blk t).view.set := by
  have hi0 : (i 0).val < 50000 := (i 0).isLt
  have hi1 : (i 1).val < 64 := (i 1).isLt
  have hN : cfg1.N = 25 := N_1
  let t : Fin cfg1.N := ⟨(i 0).val / 2000, by rw [hN]; omega⟩
  obtain ⟨-, -, -, -, -, -, e0, e1, -⟩ := idx1 t
  have ht : t.val = (i 0).val / 2000 := rfl
  refine ⟨t, flush1_6 t, ?_⟩
  rw [mem_blk1]
  intro a
  match a with
  | ⟨0, _⟩ => show win1_6.index t (0 : Fin 2) * 2000 ≤ (i 0).val ∧ (i 0).val < win1_6.index t (0 : Fin 2) * 2000 + 2000; rw [e0, ht]; omega
  | ⟨1, _⟩ => show win1_6.index t (1 : Fin 2) * 64 ≤ (i 1).val ∧ (i 1).val < win1_6.index t (1 : Fin 2) * 64 + 64; rw [e1]; omega

/-- After the second grid its output array is the second layer of the arrays as the grid found them. -/
theorem final1 (c : Dev nD) : (dat1 V c).arrAt 6 cfg1.N = layer2Of V c :=
  (dat1 V c).arrAt_eq_of_cover 6 (layer2Of V c) (fun t _ => flushed1_eq V c t) cover1

end Cert.KernelIdeal.Whole2

end
-- ==== Proof.HostGlue.lean ====
/-
  What the host operations around the two grids compute, as functions of the arguments.

  From the edge list e (two rows of 600000 node numbers: sources, then destinations) the host forms, once, the
  degree of every node (a scatter-add of ones at the destinations), clips it below at one and takes the reciprocal,
  spread into a column. For a feature array y it forms the neighbour sum: the rows of y gathered at the sources
  (a negative source number wrapped once by the number of nodes) and scatter-added at the destinations. The gather
  and the scatter are never opened here: both programs apply the same ones to the same operands.

  Read at a node r: the reciprocal column holds 1 / c(r), and c(r) = max(1, deg r).
-/
import proofs.«167576_j80676665688561_1_alg».proof.Proof.Gen.KernelIdeal.Frame
import proofs.«167576_j80676665688561_1_alg».proof.Proof.Spec
import Idealize.ShloMosaic.Lib.Pipeline.Value
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.SL.Sem
open Idealize.ShloMosaic.ValueIdx Idealize.ShloMosaic.StableHlo

/-- The edges' source node numbers. -/
def srcOf (e : (⟨S2x600000, .i32⟩ : BufTy).Contents (Elt Ideal)) : (⟨S600000, .i32⟩ : BufTy).Contents (Elt Ideal) :=
  shapeCast _ (extractStridedSlice S1x600000 ![0, 0] e slices_S2x600000_S1x600000_0_0) shapeCasts_S1x600000_S600000

/-- The edges' destination node numbers. -/
def dstOf (e : (⟨S2x600000, .i32⟩ : BufTy).Contents (Elt Ideal)) : (⟨S600000, .i32⟩ : BufTy).Contents (Elt Ideal) :=
  shapeCast _ (extractStridedSlice S1x600000 ![1, 0] e slices_S2x600000_S1x600000_1_0) shapeCasts_S1x600000_S600000

/-- The neighbour sum of a feature array along the edges. -/
def nbrSum (y : (⟨S50000x128, .f32⟩ : BufTy).Contents (Elt Ideal)) (e : (⟨S2x600000, .i32⟩ : BufTy).Contents (Elt Ideal)) :
    (⟨S50000x128, .f32⟩ : BufTy).Contents (Elt Ideal) :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 (dstOf e))
    (Host.gather gather_S50000x128_S600000x1_S600000x128_1_0_n_n_0_1_1128 y
      (broadcastInDim S600000x1 ![0] bcast_S600000_S600000x1_0
        (select (cmpi .slt (srcOf e) (broadcastInDim S600000 ![] bcast_S_S600000 (constantI S_ 32 0#32)))
          (addi (srcOf e) (broadcastInDim S600000 ![] bcast_S_S600000 (constantI S_ 32 50000#32))) (srcOf e))))

/-- Every node's degree: ones scatter-added at the destinations. -/
def degOf (e : (⟨S2x600000, .i32⟩ : BufTy).Contents (Elt Ideal)) : (⟨S50000, .f32⟩ : BufTy).Contents (Elt Ideal) :=
  Host.scatterAdd scatter_S50000_S600000x1_S600000_n_0_0_1
    (broadcastInDim S50000 ![] bcast_S_S50000 (constant (F := Ideal) S_ .f32 0x00000000#32))
    (broadcastInDim S600000x1 ![0] bcast_S600000_S600000x1_0 (dstOf e))
    (broadcastInDim S600000 ![] bcast_S_S600000 (constant (F := Ideal) S_ .f32 0x3F800000#32))

/-- The degree clipped below at one. -/
def clipOf (e : (⟨S2x600000, .i32⟩ : BufTy).Contents (Elt Ideal)) : (⟨S50000, .f32⟩ : BufTy).Contents (Elt Ideal) :=
  maximumf (broadcastInDim S50000 ![] bcast_S_S50000 (constant (F := Ideal) S_ .f32 0x3F800000#32)) (degOf e)

/-- The column of reciprocals of the clipped degree. -/
def recipCol (e : (⟨S2x600000, .i32⟩ : BufTy).Contents (Elt Ideal)) : (⟨S50000x1, .f32⟩ : BufTy).Contents (Elt Ideal) :=
  broadcastInDim S50000x1 ![0] bcast_S50000_S50000x1_0
    (Host.divf (F := Ideal) (broadcastInDim S50000 ![] bcast_S_S50000 (constant (F := Ideal) S_ .f32 0x3F800000#32)) (clipOf e))

/-- A vector clipped below at one, at node r. -/
theorem clip_apply (dg : (⟨S50000, .f32⟩ : BufTy).Contents (Elt Ideal)) (r : Fin 50000) :
    maximumf (broadcastInDim S50000 ![] bcast_S_S50000 (constant (F := Ideal) S_ .f32 0x3F800000#32)) dg (ix1 r)
      = max Cert.Sage.one (dg (ix1 r)) := rfl

/-- The column of reciprocals of a vector, at node r. -/
theorem recip_apply (cl : (⟨S50000, .f32⟩ : BufTy).Contents (Elt Ideal)) (r : Fin 50000) :
    broadcastInDim S50000x1 ![0] bcast_S50000_S50000x1_0
        (Host.divf (F := Ideal) (broadcastInDim S50000 ![] bcast_S_S50000 (constant (F := Ideal) S_ .f32 0x3F800000#32)) cl)
        (ix2 r (0 : Fin 1))
      = Ideal.div Cert.Sage.one (cl (ix1 r)) := by
  refine (broadcastInDim_apply _ bcast_S50000_S50000x1_0 _ (ix2 r (0 : Fin 1)) (ix1 r) (fun a => match a with
    | ⟨0, _⟩ => by show r.val = if (50000 : Nat) = 1 then 0 else r.val; rw [if_neg (by decide)])).trans ?_
  rfl

/-- The clipped degree of node r is max(1, deg r). -/
theorem clipOf_apply (e : (⟨S2x600000, .i32⟩ : BufTy).Contents (Elt Ideal)) (r : Fin 50000) :
    clipOf e (ix1 r) = max Cert.Sage.one (degOf e (ix1 r)) := by
  unfold clipOf
  exact clip_apply (degOf e) r

/-- The reciprocal column at node r is 1 / c(r). -/
theorem recipCol_apply (e : (⟨S2x600000, .i32⟩ : BufTy).Contents (Elt Ideal)) (r : Fin 50000) :
    recipCol e (ix2 r (0 : Fin 1)) = Ideal.div Cert.Sage.one (clipOf e (ix1 r)) := by
  unfold recipCol
  exact recip_apply (clipOf e) r

end Cert.KernelIdeal.Glue

end
-- ==== Proof.KernelValue.lean ====
/-
  The idealized kernel's result as one function of the arguments.

  Boundary by boundary: the first three stretches of host operations leave the neighbour sum of the features, the
  reciprocal column of the clipped degree and the edge lists (the arguments untouched); the first grid leaves the
  first layer of those in its output array and nothing else changed; the next stretch leaves the neighbour sum of
  that array; the second grid leaves the second layer. So the result buffer ends holding
  layer2 (nbr h) h s with h = layer1 (nbr x) x s, s the reciprocal column — in the kernel's spelling.
-/
import proofs.«167576_j80676665688561_1_alg».proof.Proof.Gen.KernelIdeal.Frame
import proofs.«167576_j80676665688561_1_alg».proof.Proof.Blocks0
import proofs.«167576_j80676665688561_1_alg».proof.Proof.Blocks1
import proofs.«167576_j80676665688561_1_alg».proof.Proof.HostGlue
import Idealize.ShloMosaic.Lib.StableHlo.Run

set_option maxRecDepth 16384

noncomputable section

namespace Cert.KernelIdeal.Out

open Cert.KernelIdeal Cert.KernelIdeal.Gen Cert.KernelIdeal.Glue Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## Before the first grid -/

theorem W3_v21 (c : Dev nD) : V3 m ρ c main_v21 = nbrSum (m ((c : Thread nD τ).loc main_arg0)) (m ((c : Thread nD τ).loc main_arg1)) := by
  show StableHlo.after hostOps0_2 (StableHlo.after hostOps0_1 (StableHlo.after hostOps0 (W0 m ρ c))) (Proc.devRef .tc main_v21) = _
  after_results_simp
  rfl

theorem W3_v11 (c : Dev nD) : V3 m ρ c main_v11 = recipCol (m ((c : Thread nD τ).loc main_arg1)) := by
  show StableHlo.after hostOps0_2 (StableHlo.after hostOps0_1 (StableHlo.after hostOps0 (W0 m ρ c))) (Proc.devRef .tc main_v11) = _
  after_results_simp
  rfl

theorem W3_v1 (c : Dev nD) : V3 m ρ c main_v1 = srcOf (m ((c : Thread nD τ).loc main_arg1)) := by
  show StableHlo.after hostOps0_2 (StableHlo.after hostOps0_1 (StableHlo.after hostOps0 (W0 m ρ c))) (Proc.devRef .tc main_v1) = _
  after_results_simp
  rfl

theorem W3_v3 (c : Dev nD) : V3 m ρ c main_v3 = dstOf (m ((c : Thread nD τ).loc main_arg1)) := by
  show StableHlo.after hostOps0_2 (StableHlo.after hostOps0_1 (StableHlo.after hostOps0 (W0 m ρ c))) (Proc.devRef .tc main_v3) = _
  after_results_simp
  rfl

theorem W3_arg0 (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  after_results_simp

theorem W3_arg2 (c : Dev nD) : V3 m ρ c main_arg2 = m ((c : Thread nD τ).loc main_arg2) := by
  show StableHlo.after hostOps0_2 (StableHlo.after hostOps0_1 (StableHlo.after hostOps0 (W0 m ρ c))) (Proc.devRef .tc main_arg2) = _
  after_results_simp

theorem W3_arg3 (c : Dev nD) : V3 m ρ c main_arg3 = m ((c : Thread nD τ).loc main_arg3) := by
  show StableHlo.after hostOps0_2 (StableHlo.after hostOps0_1 (StableHlo.after hostOps0 (W0 m ρ c))) (Proc.devRef .tc main_arg3) = _
  after_results_simp

theorem W3_arg4 (c : Dev nD) : V3 m ρ c main_arg4 = m ((c : Thread nD τ).loc main_arg4) := by
  show StableHlo.after hostOps0_2 (StableHlo.after hostOps0_1 (StableHlo.after hostOps0 (W0 m ρ c))) (Proc.devRef .tc main_arg4) = _
  after_results_simp

theorem W3_arg5 (c : Dev nD) : V3 m ρ c main_arg5 = m ((c : Thread nD τ).loc main_arg5) := by
  show StableHlo.after hostOps0_2 (StableHlo.after hostOps0_1 (StableHlo.after hostOps0 (W0 m ρ c))) (Proc.devRef .tc main_arg5) = _
  after_results_simp

theorem W3_arg6 (c : Dev nD) : V3 m ρ c main_arg6 = m ((c : Thread nD τ).loc main_arg6) := by
  show StableHlo.after hostOps0_2 (StableHlo.after hostOps0_1 (StableHlo.after hostOps0 (W0 m ρ c))) (Proc.devRef .tc main_arg6) = _
  after_results_simp

theorem W3_arg7 (c : Dev nD) : V3 m ρ c main_arg7 = m ((c : Thread nD τ).loc main_arg7) := by
  show StableHlo.after hostOps0_2 (StableHlo.after hostOps0_1 (StableHlo.after hostOps0 (W0 m ρ c))) (Proc.devRef .tc main_arg7) = _
  after_results_simp

theorem W3_arg8 (c : Dev nD) : V3 m ρ c main_arg8 = m ((c : Thread nD τ).loc main_arg8) := by
  show StableHlo.after hostOps0_2 (StableHlo.after hostOps0_1 (StableHlo.after hostOps0 (W0 m ρ c))) (Proc.devRef .tc main_arg8) = _
  after_results_simp

/-! ## After the first grid -/

/-- The first grid's output array holds the first layer of what the grid found. -/
theorem W4_v22 (c : Dev nD) : V4 m ρ c main_v22 = Cert.KernelIdeal.Whole.layer1Of (V3 m ρ) c :=
  (W4_arr m ρ c 10).trans (Cert.KernelIdeal.Whole.final0 (V3 m ρ) c)

/-- The reciprocal column is read by the first grid, not written. -/
theorem W4_v11 (c : Dev nD) : V4 m ρ c main_v11 = V3 m ρ c main_v11 :=
  (W4_arr m ρ c 1).trans (((dat0 (V3 m ρ) c).arrAt_in 1 rfl _).trans (A_eq0 (V3 m ρ) c 1))

/-- The edge lists are no array of the first grid. -/
theorem W4_v1 (c : Dev nD) : V4 m ρ c main_v1 = V3 m ρ c main_v1 := W4_of_ne m ρ c main_v1 (by decide)
theorem W4_v3 (c : Dev nD) : V4 m ρ c main_v3 = V3 m ρ c main_v3 := W4_of_ne m ρ c main_v3 (by decide)

/-! ## Before the second grid -/

theorem W5_v32 (c : Dev nD) : V5 m ρ c main_v32 = nbrSum (V4 m ρ c main_v22) (m ((c : Thread nD τ).loc main_arg1)) := by
  have h1 := (W4_v1 m ρ c).trans (W3_v1 m ρ c)
  have h3 := (W4_v3 m ρ c).trans (W3_v3 m ρ c)
  show StableHlo.after hostOps1 (W4 m ρ c) (Proc.devRef .tc main_v32) = _
  after_results_simp
  unfold nbrSum
  rw [← h1, ← h3]

theorem W5_v22 (c : Dev nD) : V5 m ρ c main_v22 = V4 m ρ c main_v22 := by
  show StableHlo.after hostOps1 (W4 m ρ c) (Proc.devRef .tc main_v22) = _
  after_results_simp

theorem W5_v11 (c : Dev nD) : V5 m ρ c main_v11 = V4 m ρ c main_v11 := by
  show StableHlo.after hostOps1 (W4 m ρ c) (Proc.devRef .tc main_v11) = _
  after_results_simp

theorem W5_arg9 (c : Dev nD) : V5 m ρ c main_arg9 = m ((c : Thread nD τ).loc main_arg9) :=
  (((W6_arr m ρ c 3).trans (((dat1 (V5 m ρ) c).arrAt_in 3 rfl _).trans (A_eq1 (V5 m ρ) c 3))).symm).trans (W6_main_arg9 m ρ c)

theorem W5_arg10 (c : Dev nD) : V5 m ρ c main_arg10 = m ((c : Thread nD τ).loc main_arg10) :=
  (((W6_arr m ρ c 4).trans (((dat1 (V5 m ρ) c).arrAt_in 4 rfl _).trans (A_eq1 (V5 m ρ) c 4))).symm).trans (W6_main_arg10 m ρ c)

theorem W5_arg11 (c : Dev nD) : V5 m ρ c main_arg11 = m ((c : Thread nD τ).loc main_arg11) :=
  (((W6_arr m ρ c 5).trans (((dat1 (V5 m ρ) c).arrAt_in 5 rfl _).trans (A_eq1 (V5 m ρ) c 5))).symm).trans (W6_main_arg11 m ρ c)

/-! ## The result -/

/-- The second grid's output array holds the second layer of what the grid found. -/
theorem W6_v33 (c : Dev nD) : W6 m ρ c (Proc.devRef .tc main_v33) = Cert.KernelIdeal.Whole2.layer2Of (V5 m ρ) c :=
  (W6_arr m ρ c 6).trans (Cert.KernelIdeal.Whole2.final1 (V5 m ρ) c)

/-- The first layer's output in terms of the arguments. -/
def hidden (c : Dev nD) : (⟨S50000x128, .f32⟩ : BufTy).Contents (Elt Ideal) :=
  Cert.Sage.layer1Ker (n := 50000) (nbrSum (m ((c : Thread nD τ).loc main_arg0)) (m ((c : Thread nD τ).loc main_arg1)))
    (m ((c : Thread nD τ).loc main_arg0)) (recipCol (m ((c : Thread nD τ).loc main_arg1)))
    (m ((c : Thread nD τ).loc main_arg2)) (m ((c : Thread nD τ).loc main_arg4)) (m ((c : Thread nD τ).loc main_arg3))
    (m ((c : Thread nD τ).loc main_arg5)) (m ((c : Thread nD τ).loc main_arg6)) (m ((c : Thread nD τ).loc main_arg7))
    (m ((c : Thread nD τ).loc main_arg8))

theorem hidden_eq (c : Dev nD) : Cert.KernelIdeal.Whole.layer1Of (V3 m ρ) c = hidden m c := by
  unfold Cert.KernelIdeal.Whole.layer1Of hidden
  rw [W3_v21, W3_v11, W3_arg0, W3_arg2, W3_arg3, W3_arg4, W3_arg5, W3_arg6, W3_arg7, W3_arg8]

/-- The result buffer after the run, in terms of the arguments. -/
theorem result_eq (c : Dev nD) : W6 m ρ c (Proc.devRef .tc main_v33)
    = Cert.Sage.layer2Ker (n := 50000) (nbrSum (hidden m c) (m ((c : Thread nD τ).loc main_arg1))) (hidden m c)
        (recipCol (m ((c : Thread nD τ).loc main_arg1)))
        (m ((c : Thread nD τ).loc main_arg9)) (m ((c : Thread nD τ).loc main_arg11)) (m ((c : Thread nD τ).loc main_arg10)) := by
  rw [W6_v33]
  unfold Cert.KernelIdeal.Whole2.layer2Of
  rw [W5_v32, W5_v22, W5_v11, W5_arg9, W5_arg10, W5_arg11, W4_v22, W4_v11, W3_v11, hidden_eq]

end Cert.KernelIdeal.Out

end
-- ==== Proof.RefLayers.lean ====
/-
  The reference program, stage by stage, is the two graph-convolution layers.

  Write num(y)(r,k) for the neighbour sum of an array y of node rows: the rows of y at the edges' source nodes, added
  up at the edges' target nodes (a negative source index first wrapped by the node count). Write deg(r) for the number
  of edges that end at r and c(r) = max(1, deg r) for the clipped degree. Neither the neighbour sum nor the degree is
  opened here: they stay the reference's own gather and scatter terms, and all that is used of them is that both layers
  form them by the same term.

  First layer. The reference broadcasts c along the channel axis and divides: mean(r,k) = num(x)(r,k) / c(r). It
  transposes the two weight matrices and contracts over the 128 input channels, so its two products at (r,j) are
  sum_k mean(r,k) * W1l(j,k) and sum_k x(r,k) * W1r(j,k); the bias is broadcast along the node axis and added between
  them. That is the linear part of the layer. Then, every per-channel vector being broadcast along the node axis, it
  subtracts the running mean, multiplies by the inverse square root of (running variance + eps), multiplies by gamma,
  adds beta, and takes the maximum with zero. Read at an index (r,j), each broadcast and each transpose is one
  coordinate permutation, so the whole stage chain is the first-layer function of num(x), x, c and the parameters.

  Second layer. On the first layer's output h the reference forms num(h) and the same clipped degree again, divides,
  and takes the linear part alone with the 64-row weight matrices W2l, W2r and the bias b2l: at (r,j),
  sum_k (num(h)(r,k) / c(r)) * W2l(j,k) + b2l(j) + sum_k h(r,k) * W2r(j,k).

  Every lemma below reads one stage at an index built from its coordinates; the two layer theorems chain them.
-/
import proofs.«167576_j80676665688561_1_alg».proof.Proof.Gen.ReferenceIdeal.Run
import proofs.«167576_j80676665688561_1_alg».proof.Proof.Gen.ReferenceIdeal.Read
import proofs.«167576_j80676665688561_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The clipped degree, broadcast along the channel axis, read at node r. -/
theorem c_at (x1 : (⟨S2x600000, .i32⟩ : BufTy).Contents (Elt Ideal)) (r : Fin 50000) (j : Fin 128) :
    val_main_v20 (F := Ideal) x1 (ix2 r j) = val_main_v18 (F := Ideal) x1 (ix1 r) := by
  rw [val_main_v20_apply, val_main_v19_apply]
  exact congrArg _ (funext fun a => by match a with | ⟨0, _⟩ => rfl)

theorem mean_at (x0 : (⟨S50000x128, .f32⟩ : BufTy).Contents (Elt Ideal)) (x1 : (⟨S2x600000, .i32⟩ : BufTy).Contents (Elt Ideal)) (r : Fin 50000) (k : Fin 128) :
    val_main_v21 (F := Ideal) x0 x1 (ix2 r k)
      = Cert.Sage.meanDiv (val_main_v13 (F := Ideal) x0 x1) (val_main_v18 (F := Ideal) x1) r k := by
  rw [val_main_v21_apply, c_at]
  rfl

theorem w1lT_at (x2 : (⟨S128x128, .f32⟩ : BufTy).Contents (Elt Ideal)) (k j : Fin 128) :
    val_main_v22 (F := Ideal) x2 (ix2 k j) = x2 (ix2 j k) := by
  rw [val_main_v22_apply]
  exact congrArg _ (funext fun a => by match a with | ⟨0, _⟩ => rfl | ⟨1, _⟩ => rfl)

theorem dot23_at (x0 : (⟨S50000x128, .f32⟩ : BufTy).Contents (Elt Ideal)) (x1 : (⟨S2x600000, .i32⟩ : BufTy).Contents (Elt Ideal)) (x2 : (⟨S128x128, .f32⟩ : BufTy).Contents (Elt Ideal)) (r : Fin 50000) (j : Fin 128) :
    val_main_v23 (F := Ideal) x0 x1 x2 (ix2 r j)
      = ∑ k : Fin 128, Cert.Sage.meanDiv (val_main_v13 (F := Ideal) x0 x1) (val_main_v18 (F := Ideal) x1) r k * x2 (ix2 j k) := by
  rw [val_main_v23_apply]
  refine Finset.sum_congr rfl fun k _ => ?_
  have hl : lidx_main_v23 (ix2 r j) k = ix2 r k := funext fun a => by match a with | ⟨0, _⟩ => rfl | ⟨1, _⟩ => rfl
  have hr : ridx_main_v23 (ix2 r j) k = ix2 k j := funext fun a => by match a with | ⟨0, _⟩ => rfl | ⟨1, _⟩ => rfl
  rw [hl, hr, mean_at, w1lT_at]

theorem b1_at (x3 : (⟨S128, .f32⟩ : BufTy).Contents (Elt Ideal)) (r : Fin 50000) (j : Fin 128) :
    val_main_v25 (F := Ideal) x3 (ix2 r j) = x3 (ix1 j) := by
  rw [val_main_v25_apply, val_main_v24_apply]
  exact congrArg _ (funext fun a => by match a with | ⟨0, _⟩ => rfl)

theorem w1rT_at (x4 : (⟨S128x128, .f32⟩ : BufTy).Contents (Elt Ideal)) (k j : Fin 128) :
    val_main_v27 (F := Ideal) x4 (ix2 k j) = x4 (ix2 j k) := by
  rw [val_main_v27_apply]
  exact congrArg _ (funext fun a => by match a with | ⟨0, _⟩ => rfl | ⟨1, _⟩ => rfl)

theorem dot28_at (x0 : (⟨S50000x128, .f32⟩ : BufTy).Contents (Elt Ideal)) (x4 : (⟨S128x128, .f32⟩ : BufTy).Contents (Elt Ideal)) (r : Fin 50000) (j : Fin 128) :
    val_main_v28 (F := Ideal) x0 x4 (ix2 r j) = ∑ k : Fin 128, x0 (ix2 r k) * x4 (ix2 j k) := by
  rw [val_main_v28_apply]
  refine Finset.sum_congr rfl fun k _ => ?_
  have hl : lidx_main_v28 (ix2 r j) k = ix2 r k := funext fun a => by match a with | ⟨0, _⟩ => rfl | ⟨1, _⟩ => rfl
  have hr : ridx_main_v28 (ix2 r j) k = ix2 k j := funext fun a => by match a with | ⟨0, _⟩ => rfl | ⟨1, _⟩ => rfl
  rw [hl, hr, w1rT_at]

/-- The linear part of the first layer. -/
theorem dense1_at (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (r : Fin 50000) (j : Fin 128) :
    val_main_v29 (F := Ideal) x0 x1 x2 x3 x4 (ix2 r j)
      = Cert.Sage.dense (Cert.Sage.meanDiv (val_main_v13 (F := Ideal) x0 x1) (val_main_v18 (F := Ideal) x1)) x0 x2 x4 x3 r j := by
  rw [val_main_v29_apply, val_main_v26_apply, dot23_at, b1_at, dot28_at]
  rfl

theorem mean1_at (x7 : (⟨S128, .f32⟩ : BufTy).Contents (Elt Ideal)) (r : Fin 50000) (j : Fin 128) :
    val_main_v31 (F := Ideal) x7 (ix2 r j) = x7 (ix1 j) := by
  rw [val_main_v31_apply, val_main_v30_apply]
  exact congrArg _ (funext fun a => by match a with | ⟨0, _⟩ => rfl)

theorem gamma_at (x5 : (⟨S128, .f32⟩ : BufTy).Contents (Elt Ideal)) (r : Fin 50000) (j : Fin 128) :
    val_main_v40 (F := Ideal) x5 (ix2 r j) = x5 (ix1 j) := by
  rw [val_main_v40_apply, val_main_v39_apply]
  exact congrArg _ (funext fun a => by match a with | ⟨0, _⟩ => rfl)

theorem beta_at (x6 : (⟨S128, .f32⟩ : BufTy).Contents (Elt Ideal)) (r : Fin 50000) (j : Fin 128) :
    val_main_v43 (F := Ideal) x6 (ix2 r j) = x6 (ix1 j) := by
  rw [val_main_v43_apply, val_main_v42_apply]
  exact congrArg _ (funext fun a => by match a with | ⟨0, _⟩ => rfl)

theorem invdev_at (x8 : (⟨S128, .f32⟩ : BufTy).Contents (Elt Ideal)) (r : Fin 50000) (j : Fin 128) :
    val_main_v37 (F := Ideal) x8 (ix2 r j) = Ideal.rsqrt (x8 (ix1 j) + Cert.Sage.eps) := by
  rw [val_main_v37_apply, val_main_v36_apply, val_main_v35_apply, val_main_v34_apply, val_main_v33_apply, val_main_cst_4_apply]
  have h : idx_main_v36 (idx_main_v37 (ix2 r j)) = ix1 j := funext fun a => by match a with | ⟨0, _⟩ => rfl
  rw [h]
  rfl

theorem relu0_at (i : S50000x128.Idx) :
    val_main_call1_v0 (F := Ideal) i = Cert.Sage.zero := by
  rw [val_main_call1_v0_apply, val_main_call1_cst_apply]
  rfl

/-- The first layer: linear part, normalisation with the running statistics, clamp at zero. -/
theorem layer1_eq (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) :
    val_main_v45 (F := Ideal) x0 x1 x2 x3 x4 x5 x6 x7 x8
      = Cert.Sage.layer1Ref (val_main_v13 (F := Ideal) x0 x1) x0 (val_main_v18 (F := Ideal) x1) x2 x4 x3 x5 x6 x7 x8 := by
  funext i
  obtain ⟨r, j, rfl⟩ : ∃ (r : Fin 50000) (j : Fin 128), i = ix2 r j := ⟨i 0, i 1, eq_ix2 i⟩
  rw [val_main_v45_apply, val_main_v44_apply, val_main_v41_apply, val_main_v38_apply, val_main_v32_apply,
    dense1_at, mean1_at, invdev_at, gamma_at, beta_at, relu0_at]
  rfl

theorem c2_at (x1 : (⟨S2x600000, .i32⟩ : BufTy).Contents (Elt Ideal)) (r : Fin 50000) (j : Fin 128) :
    val_main_v62 (F := Ideal) x1 (ix2 r j) = val_main_v60 (F := Ideal) x1 (ix1 r) := by
  rw [val_main_v62_apply, val_main_v61_apply]
  exact congrArg _ (funext fun a => by match a with | ⟨0, _⟩ => rfl)

theorem mean2_at (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (r : Fin 50000) (k : Fin 128) :
    val_main_v63 (F := Ideal) x0 x1 x2 x3 x4 x5 x6 x7 x8 (ix2 r k)
      = Cert.Sage.meanDiv (val_main_v55 (F := Ideal) x0 x1 x2 x3 x4 x5 x6 x7 x8) (val_main_v60 (F := Ideal) x1) r k := by
  rw [val_main_v63_apply, c2_at]
  rfl

theorem w2lT_at (x9 : (⟨S64x128, .f32⟩ : BufTy).Contents (Elt Ideal)) (k : Fin 128) (j : Fin 64) :
    val_main_v64 (F := Ideal) x9 (ix2 k j) = x9 (ix2 j k) := by
  rw [val_main_v64_apply]
  exact congrArg _ (funext fun a => by match a with | ⟨0, _⟩ => rfl | ⟨1, _⟩ => rfl)

theorem dot65_at (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S64x128, .f32⟩ : BufTy).Contents (Elt Ideal)) (r : Fin 50000) (j : Fin 64) :
    val_main_v65 (F := Ideal) x0 x1 x2 x3 x4 x5 x6 x7 x8 x9 (ix2 r j)
      = ∑ k : Fin 128, Cert.Sage.meanDiv (val_main_v55 (F := Ideal) x0 x1 x2 x3 x4 x5 x6 x7 x8) (val_main_v60 (F := Ideal) x1) r k * x9 (ix2 j k) := by
  rw [val_main_v65_apply]
  refine Finset.sum_congr rfl fun k _ => ?_
  have hl : lidx_main_v65 (ix2 r j) k = ix2 r k := funext fun a => by match a with | ⟨0, _⟩ => rfl | ⟨1, _⟩ => rfl
  have hr : ridx_main_v65 (ix2 r j) k = ix2 k j := funext fun a => by match a with | ⟨0, _⟩ => rfl | ⟨1, _⟩ => rfl
  rw [hl, hr, mean2_at, w2lT_at]

theorem b2_at (x10 : (⟨S64, .f32⟩ : BufTy).Contents (Elt Ideal)) (r : Fin 50000) (j : Fin 64) :
    val_main_v67 (F := Ideal) x10 (ix2 r j) = x10 (ix1 j) := by
  rw [val_main_v67_apply, val_main_v66_apply]
  exact congrArg _ (funext fun a => by match a with | ⟨0, _⟩ => rfl)

theorem w2rT_at (x11 : (⟨S64x128, .f32⟩ : BufTy).Contents (Elt Ideal)) (k : Fin 128) (j : Fin 64) :
    val_main_v69 (F := Ideal) x11 (ix2 k j) = x11 (ix2 j k) := by
  rw [val_main_v69_apply]
  exact congrArg _ (funext fun a => by match a with | ⟨0, _⟩ => rfl | ⟨1, _⟩ => rfl)

theorem dot70_at (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x11 : (⟨S64x128, .f32⟩ : BufTy).Contents (Elt Ideal)) (r : Fin 50000) (j : Fin 64) :
    val_main_v70 (F := Ideal) x0 x1 x2 x3 x4 x5 x6 x7 x8 x11 (ix2 r j)
      = ∑ k : Fin 128, val_main_v45 (F := Ideal) x0 x1 x2 x3 x4 x5 x6 x7 x8 (ix2 r k) * x11 (ix2 j k) := by
  rw [val_main_v70_apply]
  refine Finset.sum_congr rfl fun k _ => ?_
  have hl : lidx_main_v70 (ix2 r j) k = ix2 r k := funext fun a => by match a with | ⟨0, _⟩ => rfl | ⟨1, _⟩ => rfl
  have hr : ridx_main_v70 (ix2 r j) k = ix2 k j := funext fun a => by match a with | ⟨0, _⟩ => rfl | ⟨1, _⟩ => rfl
  rw [hl, hr, w2rT_at]

/-- The second layer: the linear part alone, on the first layer's output. -/
theorem layer2_eq (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S64x128, .f32⟩ : BufTy).Contents (Elt Ideal)) (x10 : (⟨S64, .f32⟩ : BufTy).Contents (Elt Ideal)) (x11 : (⟨S64x128, .f32⟩ : BufTy).Contents (Elt Ideal)) :
    val_main_v71 (F := Ideal) x0 x1 x2 x3 x4 x5 x6 x7 x8 x9 x10 x11
      = Cert.Sage.layer2Ref (val_main_v55 (F := Ideal) x0 x1 x2 x3 x4 x5 x6 x7 x8) (val_main_v45 (F := Ideal) x0 x1 x2 x3 x4 x5 x6 x7 x8)
          (val_main_v60 (F := Ideal) x1) x9 x11 x10 := by
  funext i
  obtain ⟨r, j, rfl⟩ : ∃ (r : Fin 50000) (j : Fin 64), i = ix2 r j := ⟨i 0, i 1, eq_ix2 i⟩
  rw [val_main_v71_apply, val_main_v68_apply, dot65_at, b2_at, dot70_at]
  rfl

/-- The clipped degree is the larger of one and the degree. -/
theorem clip_eq (x1 : (⟨S2x600000, .i32⟩ : BufTy).Contents (Elt Ideal)) (r : Fin 50000) :
    val_main_v18 (F := Ideal) x1 (ix1 r) = max Cert.Sage.one (val_main_v17 (F := Ideal) x1 (ix1 r)) := by
  rw [val_main_v18_apply, val_main_call0_v1_apply, val_main_call0_v0_apply, val_main_cst_3_apply]
  rfl

/-- The second layer recomputes the same clipped degree. -/
theorem clip2_eq (x1 : (⟨S2x600000, .i32⟩ : BufTy).Contents (Elt Ideal)) : val_main_v60 (F := Ideal) x1 = val_main_v18 (F := Ideal) x1 := by
  unfold val_main_v60 val_main_v18 val_main_call2_v1 val_main_call0_v1 val_main_call2_v0 val_main_call0_v0
    val_main_cst_10 val_main_cst_3 val_main_v59 val_main_v17 val_main_v58 val_main_v16 val_main_v57 val_main_v15
    val_main_v56 val_main_v14 val_main_cst_9 val_main_cst_2 val_main_cst_8 val_main_cst_1
  rfl

/-- The neighbour sum of an array of node rows over an edge list: gather the source rows (a negative source index
    wrapped by the node count), scatter-add them at the target rows into zeros. -/
def nbrSum (y : (⟨S50000x128, .f32⟩ : BufTy).Contents (Elt Ideal)) (e : (⟨S2x600000, .i32⟩ : BufTy).Contents (Elt Ideal)) : (⟨S50000x128, .f32⟩ : BufTy).Contents (Elt Ideal) :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0
      (shapeCast _ (extractStridedSlice S1x600000 ![1, 0] e slices_S2x600000_S1x600000_1_0) shapeCasts_S1x600000_S600000))
    (Host.gather gather_S50000x128_S600000x1_S600000x128_1_0_n_n_0_1_1128 y
      (broadcastInDim S600000x1 ![0] bcast_S600000_S600000x1_0
        (select
          (cmpi .slt (shapeCast _ (extractStridedSlice S1x600000 ![0, 0] e slices_S2x600000_S1x600000_0_0) shapeCasts_S1x600000_S600000)
            (broadcastInDim S600000 ![] bcast_S_S600000 (constantI S_ 32 0#32)))
          (addi (shapeCast _ (extractStridedSlice S1x600000 ![0, 0] e slices_S2x600000_S1x600000_0_0) shapeCasts_S1x600000_S600000)
            (broadcastInDim S600000 ![] bcast_S_S600000 (constantI S_ 32 50000#32)))
          (shapeCast _ (extractStridedSlice S1x600000 ![0, 0] e slices_S2x600000_S1x600000_0_0) shapeCasts_S1x600000_S600000))))

/-- The first layer's numerator is the neighbour sum of the input features. -/
theorem num1_eq (x0 : (⟨S50000x128, .f32⟩ : BufTy).Contents (Elt Ideal)) (x1 : (⟨S2x600000, .i32⟩ : BufTy).Contents (Elt Ideal)) : val_main_v13 (F := Ideal) x0 x1 = nbrSum x0 x1 := by
  unfold val_main_v13 val_main_v12 val_main_v11 val_main_v10 val_main_v9 val_main_v8 val_main_v7 val_main_v6 val_main_v5
    val_main_v4 val_main_v3 val_main_v2 val_main_v1 val_main_v0 val_main_cst val_main_c val_main_c_0 nbrSum
  rfl

/-- The second layer's numerator is the neighbour sum of the first layer's output. -/
theorem num2_eq (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) :
    val_main_v55 (F := Ideal) x0 x1 x2 x3 x4 x5 x6 x7 x8 = nbrSum (val_main_v45 (F := Ideal) x0 x1 x2 x3 x4 x5 x6 x7 x8) x1 := by
  unfold val_main_v55 val_main_v54 val_main_v53 val_main_v52 val_main_v51 val_main_v50 val_main_v49 val_main_v48 val_main_v47
    val_main_v46 val_main_v3 val_main_v2 val_main_v1 val_main_v0 val_main_cst_7 val_main_c_5 val_main_c_6 nbrSum
  rfl

end Cert.ReferenceIdeal.RefValue

end
-- ==== Proof.Bridge.lean ====
/-
  The two programs end with one function of the arguments.

  The kernel's result is layer2 (nbr h) h with h = layer1 (nbr x) x, the mean formed as a product with the reciprocal
  column of the clipped degree and the two normalisation scales multiplied first; the reference's is the same two
  layers with the mean formed as a quotient by the clipped degree and the scales applied one after the other. The
  clipped degree c(r) = max(1, deg r) is never zero, so the quotient by it is the product with its reciprocal for
  every extended real numerator, and the product of the scales is associative and commutative: the two spellings
  are one function. The neighbour sum and the degree are the same gather and scatter terms in both programs.
-/
import proofs.«167576_j80676665688561_1_alg».proof.Proof.KernelValue
import proofs.«167576_j80676665688561_1_alg».proof.Proof.RefLayers

set_option maxRecDepth 16384

noncomputable section

namespace Cert.Bridge

open Idealize.ShloMosaic Idealize.ShloMosaic.TcCoe Idealize.SL.Sem Idealize.ShloMosaic.ValueIdx
open Cert.KernelIdeal.Glue

/-- The neighbour sum is the same gather and scatter in both programs. -/
theorem nbr_bridge (y : (⟨Cert.KernelIdeal.S50000x128, .f32⟩ : BufTy).Contents (Elt Ideal))
    (e : (⟨Cert.KernelIdeal.S2x600000, .i32⟩ : BufTy).Contents (Elt Ideal)) :
    Cert.ReferenceIdeal.RefValue.nbrSum y e = nbrSum y e := by
  unfold Cert.ReferenceIdeal.RefValue.nbrSum nbrSum srcOf dstOf
  rfl

/-- The clipped degree is the same term in both programs. -/
theorem clip_bridge (e : (⟨Cert.KernelIdeal.S2x600000, .i32⟩ : BufTy).Contents (Elt Ideal)) :
    Cert.ReferenceIdeal.Read.val_main_v18 (F := Ideal) e = clipOf e := by
  unfold Cert.ReferenceIdeal.Read.val_main_v18 Cert.ReferenceIdeal.Read.val_main_call0_v1 Cert.ReferenceIdeal.Read.val_main_call0_v0
    Cert.ReferenceIdeal.Read.val_main_cst_3 Cert.ReferenceIdeal.Read.val_main_v17 Cert.ReferenceIdeal.Read.val_main_v16
    Cert.ReferenceIdeal.Read.val_main_v15 Cert.ReferenceIdeal.Read.val_main_v14 Cert.ReferenceIdeal.Read.val_main_cst_2
    Cert.ReferenceIdeal.Read.val_main_cst_1 Cert.ReferenceIdeal.Read.val_main_v3 Cert.ReferenceIdeal.Read.val_main_v2
    clipOf degOf dstOf
  rfl

section
variable (x : (⟨Cert.KernelIdeal.S50000x128, .f32⟩ : BufTy).Contents (Elt Ideal))
  (e : (⟨Cert.KernelIdeal.S2x600000, .i32⟩ : BufTy).Contents (Elt Ideal))
  (W1l : (⟨Cert.KernelIdeal.S128x128, .f32⟩ : BufTy).Contents (Elt Ideal))
  (b1l : (⟨Cert.KernelIdeal.S128, .f32⟩ : BufTy).Contents (Elt Ideal))
  (W1r : (⟨Cert.KernelIdeal.S128x128, .f32⟩ : BufTy).Contents (Elt Ideal))
  (gamma beta mean var : (⟨Cert.KernelIdeal.S128, .f32⟩ : BufTy).Contents (Elt Ideal))
  (W2l : (⟨Cert.KernelIdeal.S64x128, .f32⟩ : BufTy).Contents (Elt Ideal))
  (b2l : (⟨Cert.KernelIdeal.S64, .f32⟩ : BufTy).Contents (Elt Ideal))
  (W2r : (⟨Cert.KernelIdeal.S64x128, .f32⟩ : BufTy).Contents (Elt Ideal))

/-- The first layer's output, in the reference's spelling. -/
def hiddenOf : (⟨Cert.KernelIdeal.S50000x128, .f32⟩ : BufTy).Contents (Elt Ideal) :=
  Cert.Sage.layer1Ref (n := 50000) (nbrSum x e) x (clipOf e) W1l W1r b1l gamma beta mean var

/-- The network's output, in the reference's spelling. -/
def outOf : (⟨Cert.KernelIdeal.S50000x64, .f32⟩ : BufTy).Contents (Elt Ideal) :=
  Cert.Sage.layer2Ref (n := 50000) (nbrSum (hiddenOf x e W1l b1l W1r gamma beta mean var) e)
    (hiddenOf x e W1l b1l W1r gamma beta mean var) (clipOf e) W2l W2r b2l

/-- The reference's last stage is that function of the arguments. -/
theorem ref_out :
    Cert.ReferenceIdeal.Read.val_main_v71 (F := Ideal) x e W1l b1l W1r gamma beta mean var W2l b2l W2r
      = outOf x e W1l b1l W1r gamma beta mean var W2l b2l W2r := by
  rw [Cert.ReferenceIdeal.RefValue.layer2_eq, Cert.ReferenceIdeal.RefValue.num2_eq, Cert.ReferenceIdeal.RefValue.clip2_eq,
    Cert.ReferenceIdeal.RefValue.layer1_eq, Cert.ReferenceIdeal.RefValue.num1_eq, nbr_bridge, nbr_bridge, clip_bridge]
  rfl

/-- The kernel's two layers, in its own spelling, are that function of the arguments. -/
theorem ker_out :
    Cert.Sage.layer2Ker (n := 50000)
        (nbrSum (Cert.Sage.layer1Ker (n := 50000) (nbrSum x e) x (recipCol e) W1l W1r b1l gamma beta mean var) e)
        (Cert.Sage.layer1Ker (n := 50000) (nbrSum x e) x (recipCol e) W1l W1r b1l gamma beta mean var)
        (recipCol e) W2l W2r b2l
      = outOf x e W1l b1l W1r gamma beta mean var W2l b2l W2r := by
  have h1 : Cert.Sage.layer1Ker (n := 50000) (nbrSum x e) x (recipCol e) W1l W1r b1l gamma beta mean var
      = hiddenOf x e W1l b1l W1r gamma beta mean var :=
    Cert.Sage.layer1Ker_eq (n := 50000) (nbrSum x e) x (recipCol e) (degOf e) (clipOf e) W1l W1r b1l gamma beta mean var
      (clipOf_apply e) (recipCol_apply e)
  rw [h1]
  exact Cert.Sage.layer2Ker_eq (n := 50000) _ _ (recipCol e) (degOf e) (clipOf e) W2l W2r b2l (clipOf_apply e) (recipCol_apply e)

end

end Cert.Bridge

end
-- ==== Proof.lean ====
/-
  The certificate: a two-layer graph convolution (mean aggregation over an edge list, a batch-normalised and clamped
  hidden layer, a linear output layer) computed by two gridded kernels around host gathers and scatters, against
  the same network written as plain array operations.

  The three frames are the generated runs. The idealization rewrote nothing, so it is preserved trivially. For the
  equivalence over the extended reals, both programs are run with their result named: the kernel's result buffer
  ends at the second layer of the neighbour sum of the first layer (each layer read off its grid's row blocks), the
  reference's at its last stage, and the two are one function of the arguments because dividing by the clipped
  degree is multiplying by its reciprocal and the product of the normalisation scales may be regrouped.
-/
import proofs.«167576_j80676665688561_1_alg».proof.Defs
import proofs.«167576_j80676665688561_1_alg».proof.Proof.Gen.Kernel
import proofs.«167576_j80676665688561_1_alg».proof.Proof.Gen.Kernel.Frame
import proofs.«167576_j80676665688561_1_alg».proof.Proof.Gen.KernelIdeal
import proofs.«167576_j80676665688561_1_alg».proof.Proof.Gen.KernelIdeal.Frame
import proofs.«167576_j80676665688561_1_alg».proof.Proof.Gen.ReferenceIdeal
import proofs.«167576_j80676665688561_1_alg».proof.Proof.Gen.ReferenceIdeal.Run
import proofs.«167576_j80676665688561_1_alg».proof.Proof.Gen.ReferenceIdeal.Read
import proofs.«167576_j80676665688561_1_alg».proof.Proof.Gen.Pre_finite_inputs
import proofs.«167576_j80676665688561_1_alg».proof.Proof.KernelRun
import proofs.«167576_j80676665688561_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- What both programs end with, from the kernel's launch memory. -/
def out (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v33) :=
  Cert.Bridge.outOf (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))

/-- The kernel's result buffer ends at that function of its launch memory. -/
theorem kernel_out (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W6 m ρ c (Proc.devRef .tc Cert.KernelIdeal.main_v33) = out m c := by
  rw [Cert.KernelIdeal.Out.result_eq]
  unfold Cert.KernelIdeal.Out.hidden out
  exact Cert.Bridge.ker_out _ _ _ _ _ _ _ _ _ _ _ _

theorem algebraic : Cert.algebraic_KernelIdeal_ReferenceIdeal := by
  intro m ρ m' ρ' _ hagree
  refine ⟨fun c => out m c, ?_, ?_⟩
  · exact (θ_run Cert.KernelIdeal.defs _ _).mono (fun r h c => ⟨(h c).1.trans (kernel_out m ρ c), (h c).2⟩)
      (Cert.KernelIdeal.Whole.run_result m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10, a11⟩ := hagree c
    rw [(h c).1, Cert.ReferenceIdeal.Read.val_main_v71_eq, a0, a1, a2, a3, a4, a5, a6, a7, a8, a9, a10, a11]
    exact Cert.Bridge.ref_out _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
